-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 132
  | .vmem => 15
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000, .f32⟩
  | 48 => ⟨S100000x256, .bf16⟩
  | 49 => ⟨S256x128, .bf16⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .bf16⟩
  | 78 => ⟨S128x128, .bf16⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S1600000x1, .f32⟩
  | 90 => ⟨S1600000x128, .f32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x1, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .bf16⟩
  | 107 => ⟨S128x128, .bf16⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S1600000x1, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x1, .f32⟩
  | 126 => ⟨S100000x128, .f32⟩
  | 127 => ⟨S100000x128, .f32⟩
  | _ => ⟨S100000x256, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .bf16⟩
  | .local _ .vmem, ⟨1, _⟩ => ⟨S5000x256, .bf16⟩
  | .local _ .vmem, ⟨2, _⟩ => ⟨S256x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call2_cst : Ref sig .tc := ⟨.hbm, 103, rfl⟩
abbrev main_call2_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_12 : Ref sig .tc := ⟨.hbm, 109, rfl⟩
abbrev main_v81 : Ref sig .tc := ⟨.hbm, 110, rfl⟩
abbrev main_v82 : Ref sig .tc := ⟨.hbm, 111, rfl⟩
abbrev main_c_13 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_14 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1700000x1_S1700000_n_0_0_1_wf : ScatterDims.WF S100000 S1700000x1 S1700000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .bf16 = 32 ∨ (Rect.block (s := S100000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v30) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 186
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x256, .f32⟩

abbrev hbmTy0_1 (i : Nat) : BufTy := match i % 128 with
  | 0 => ⟨S100000x128, .f32⟩
  | 1 => ⟨S100000x128, .f32⟩
  | 2 => ⟨S100000x128, .f32⟩
  | 3 => ⟨S100000, .i32⟩
  | 4 => ⟨S1700000, .i32⟩
  | 5 => ⟨S1700000, .i32⟩
  | 6 => ⟨S_, .f32⟩
  | 7 => ⟨S1700000, .f32⟩
  | 8 => ⟨S_, .f32⟩
  | 9 => ⟨S100000, .f32⟩
  | 10 => ⟨S1700000x1, .i32⟩
  | 11 => ⟨S100000, .f32⟩
  | 12 => ⟨S_, .f32⟩
  | 13 => ⟨S100000, .f32⟩
  | 14 => ⟨S100000, .i1⟩
  | 15 => ⟨S100000, .f32⟩
  | 16 => ⟨S_, .f32⟩
  | 17 => ⟨S_, .f32⟩
  | 18 => ⟨S100000, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x128, .f32⟩
  | 48 => ⟨S1700000x1, .f32⟩
  | 49 => ⟨S1700000x128, .f32⟩
  | 50 => ⟨S1700000x128, .f32⟩
  | 51 => ⟨S_, .f32⟩
  | 52 => ⟨S100000x128, .f32⟩
  | 53 => ⟨S1700000x1, .i32⟩
  | 54 => ⟨S100000x128, .f32⟩
  | 55 => ⟨S1x128, .f32⟩
  | 56 => ⟨S100000x128, .f32⟩
  | 57 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v103 : Ref sig .tc := ⟨.hbm, 147, rfl⟩
abbrev main_c_24 : Ref sig .tc := ⟨.hbm, 148, rfl⟩
abbrev main_v104 : Ref sig .tc := ⟨.hbm, 149, rfl⟩
abbrev main_v105 : Ref sig .tc := ⟨.hbm, 150, rfl⟩
abbrev main_c_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_c_26 : Ref sig .tc := ⟨.hbm, 157, rfl⟩
abbrev main_v111 : Ref sig .tc := ⟨.hbm, 158, rfl⟩
abbrev main_v112 : Ref sig .tc := ⟨.hbm, 159, rfl⟩
abbrev main_c_27 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The first program's run with its result named.

  The program is a chain of thirteen segments: stretches of whole-array operations and three tiled matrix products.
  Each segment is entered with every buffer at known contents and left with them at the next known contents, so the
  contents at the thirteen boundaries form a fold from the launch memory; the last of them, `W13`, is what every buffer
  holds when the program returns. In particular the result buffer returns holding `W13` read at it, and the eight
  argument arrays return as launched.
-/
import proofs.«112320_j43233140802156_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents read at it, and each argument array what it held at launch. -/
theorem run : θ_run defs (onTc (τ := τ) (main (F := F))) ⟨m, fun _ => 0, ρ⟩ (fun r => ∀ c : Dev nD,
      r.2.mem ((c.tc : Thread nD τ).loc main_v100) = W13 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v100 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Named

end
-- ==== Proof.Spec.lean ====
/-
  The two programs' graph-convolution layer, each as one function of the layer's input features.

  Notation. The graph has N = 100000 nodes and E = 1600000 edges; the edge list is an integer array [2, E] whose row 0 holds
  the edges' source nodes and row 1 their target nodes. For a node v let deg v be 1 plus the number of edges whose target
  is v, and dinv v = deg v ^ (-1/2) where deg v > 0, else 0. One layer takes node features h : [N, 128] (already multiplied
  by the layer's weight matrix) and a bias b : [128] and returns, at node v and column q,

      (sum over the edges e with target v of h (source e, q) * (dinv (source e) * dinv (target e)))
        + h (v, q) * (dinv v * dinv v) + b q.

  The first program (`layerK`) computes the sum over the E edges by one accumulation and adds the node's own term
  afterwards. The second (`layerR`) appends to the edge list one loop edge v -> v per node and accumulates over all E + N
  entries at once. Both are spelt here with exactly the operations the programs print, so that each program's value can
  be read off as a composition of these functions without opening them.
-/
import proofs.«112320_j43233140802156_1_alg».proof.Proof.Gen.KernelIdeal
import proofs.«112320_j43233140802156_1_alg».proof.Proof.Gen.ReferenceIdeal

noncomputable section

namespace Cert.KernelIdeal.Spec

open Cert.KernelIdeal Cert.KernelIdeal.Gen Idealize.ShloMosaic Idealize.ShloMosaic.TcCoe

variable {F : FTy → Type} [FloatOps F]

/-- The edges' source nodes: row 0 of the edge list. -/
def src (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The edges' target nodes: row 1 of the edge list. -/
def dst (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- The degree count: a 1 accumulated at every edge's target and at every node (the loop edges). -/
def deg (x1 : (⟨S2x1600000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant (F := F) S_ .f32 0x00000000#32))
    (broadcastInDim S1700000x1 ![0] bcast_S1700000_S1700000x1_0
      (concatenate S1700000 0 [⟨S1600000, dst x1⟩, ⟨S100000, iotaInDim S100000 32 0⟩] concatenates_S1600000_S100000_S1700000_d0))
    (broadcastInDim S1700000 ![] bcast_S_S1700000 (constant (F := F) S_ .f32 0x3F800000#32))

/-- dinv: the degree to the power -1/2 where the degree is positive, 0 elsewhere. -/
def dinv (x1 : (⟨S2x1600000, .i32⟩ : BufTy).Contents (Elt F)) : (⟨S100000, .f32⟩ : BufTy).Contents (Elt F) :=
  select (cmpf (F := F) .ogt (deg x1) (broadcastInDim S100000 ![] bcast_S_S100000 (constant (F := F) S_ .f32 0x00000000#32)))
    (Host.rsqrt (F := F) (deg x1))
    (broadcastInDim S100000 ![] bcast_S_S100000 (id (constant (F := F) S_ .f32 0x00000000#32)))

/-- A list of E node numbers with the negative ones moved up by N (an index counted from the end). -/
def wrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- The list as a column [E, 1], the form a lookup or an accumulation takes its positions in. -/
def col (v : (⟨S1600000, .i32⟩ : BufTy).Contents (Elt F)) : (⟨S1600000x1, .i32⟩ : BufTy).Contents (Elt F) :=
  broadcastInDim S1600000x1 ![0] bcast_S1600000_S1600000x1_0 v

/-- The edges' weights: dinv at the source times dinv at the target. -/
def normEdge (x1 : (⟨S2x1600000, .i32⟩ : BufTy).Contents (Elt F)) : (⟨S1600000, .f32⟩ : BufTy).Contents (Elt F) :=
  mulf (Host.gather gather_S100000_S1600000x1_S1600000_n_0_n_n_0_1_1 (dinv x1) (col (wrap (src x1))))
    (Host.gather gather_S100000_S1600000x1_S1600000_n_0_n_n_0_1_1 (dinv x1) (col (wrap (dst x1))))

/-- The nodes' own weights: dinv squared. -/
def normSelf (x1 : (⟨S2x1600000, .i32⟩ : BufTy).Contents (Elt F)) : (⟨S100000, .f32⟩ : BufTy).Contents (Elt F) :=
  mulf (dinv x1) (dinv x1)

/-- One layer of the first program from its four carried arrays: the weighted rows of the edges' sources accumulated at
    the edges' targets, plus the node's own weighted row, plus the bias. -/
def layerOf (h : (⟨S100000x128, .f32⟩ : BufTy).Contents (Elt F)) (s d : (⟨S1600000, .i32⟩ : BufTy).Contents (Elt F))
    (ne : (⟨S1600000, .f32⟩ : BufTy).Contents (Elt F)) (ns : (⟨S100000, .f32⟩ : BufTy).Contents (Elt F))
    (b : (⟨S128, .f32⟩ : BufTy).Contents (Elt F)) : (⟨S100000x128, .f32⟩ : BufTy).Contents (Elt F) :=
  addf
    (addf
      (Host.scatterAdd scatter_S100000x128_S1600000x1_S1600000x128_1_0_0_1
        (broadcastInDim S100000x128 ![] bcast_S_S100000x128 (constant S_ .f32 0x00000000#32))
        (col d)
        (mulf (Host.gather gather_S100000x128_S1600000x1_S1600000x128_1_0_n_n_0_1_1128 h (col (wrap s)))
          (broadcastInDim S1600000x128 ![0, 1] bcast_S1600000x1_S1600000x128_0_1
            (broadcastInDim S1600000x1 ![0] bcast_S1600000_S1600000x1_0 ne))))
      (mulf h (broadcastInDim S100000x128 ![0, 1] bcast_S100000x1_S100000x128_0_1
        (broadcastInDim S100000x1 ![0] bcast_S100000_S100000x1_0 ns))))
    (broadcastInDim S100000x128 ![0, 1] bcast_S1x128_S100000x128_0_1 (broadcastInDim S1x128 ![1] bcast_S128_S1x128_1 b))

/-- One layer of the first program as a function of the features, the edge list and the bias. -/
def layerK (h : (⟨S100000x128, .f32⟩ : BufTy).Contents (Elt F)) (x1 : (⟨S2x1600000, .i32⟩ : BufTy).Contents (Elt F))
    (b : (⟨S128, .f32⟩ : BufTy).Contents (Elt F)) : (⟨S100000x128, .f32⟩ : BufTy).Contents (Elt F) :=
  layerOf h (src x1) (dst x1) (normEdge x1) (normSelf x1) b

/-- The rectifier between layers: the larger of the entry and 0. -/
def relu (v : (⟨S100000x128, .f32⟩ : BufTy).Contents (Elt F)) : (⟨S100000x128, .f32⟩ : BufTy).Contents (Elt F) :=
  maximumf v (broadcastInDim S100000x128 ![] bcast_S_S100000x128 (constant S_ .f32 0x00000000#32))

end Cert.KernelIdeal.Spec

namespace Cert.ReferenceIdeal.Spec

open Cert.ReferenceIdeal Cert.ReferenceIdeal.Gen Idealize.ShloMosaic Idealize.ShloMosaic.TcCoe

variable {F : FTy → Type} [FloatOps F]

/-- A list of E node numbers followed by the node numbers 0, …, N - 1: the edges' ends with the loop edges' appended. -/
def withLoops (v : (⟨S1600000, .i32⟩ : BufTy).Contents (Elt F)) : (⟨S1700000, .i32⟩ : BufTy).Contents (Elt F) :=
  concatenate S1700000 0 [⟨S1600000, v⟩, ⟨S100000, iotaInDim S100000 32 0⟩] concatenates_S1600000_S100000_S1700000_d0

/-- A list of E + N node numbers with the negative ones moved up by N. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The list as a column [E + N, 1]. -/
def col (v : (⟨S1700000, .i32⟩ : BufTy).Contents (Elt F)) : (⟨S1700000x1, .i32⟩ : BufTy).Contents (Elt F) :=
  broadcastInDim S1700000x1 ![0] bcast_S1700000_S1700000x1_0 v

/-- The weights of the E + N entries: dinv at the source times dinv at the target. -/
def norm (x1 : (⟨S2x1600000, .i32⟩ : BufTy).Contents (Elt F)) : (⟨S1700000, .f32⟩ : BufTy).Contents (Elt F) :=
  mulf (Host.gather gather_S100000_S1700000x1_S1700000_n_0_n_n_0_1_1 (Cert.KernelIdeal.Spec.dinv x1)
      (col (wrap (withLoops (Cert.KernelIdeal.Spec.src x1)))))
    (Host.gather gather_S100000_S1700000x1_S1700000_n_0_n_n_0_1_1 (Cert.KernelIdeal.Spec.dinv x1)
      (col (wrap (withLoops (Cert.KernelIdeal.Spec.dst x1)))))

/-- One layer of the second program: the weighted rows accumulated over the edge list extended by the loop edges, plus
    the bias. -/
def layerR (h : (⟨S100000x128, .f32⟩ : BufTy).Contents (Elt F)) (x1 : (⟨S2x1600000, .i32⟩ : BufTy).Contents (Elt F))
    (b : (⟨S128, .f32⟩ : BufTy).Contents (Elt F)) : (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (col (withLoops (Cert.KernelIdeal.Spec.dst x1)))
      (mulf (Host.gather gather_S100000x128_S1700000x1_S1700000x128_1_0_n_n_0_1_1128 h
          (col (wrap (withLoops (Cert.KernelIdeal.Spec.src x1)))))
        (broadcastInDim S1700000x128 ![0, 1] bcast_S1700000x1_S1700000x128_0_1
          (broadcastInDim S1700000x1 ![0] bcast_S1700000_S1700000x1_0 (norm x1)))))
    (broadcastInDim S100000x128 ![0, 1] bcast_S1x128_S100000x128_0_1 (broadcastInDim S1x128 ![1] bcast_S128_S1x128_1 b))

end Cert.ReferenceIdeal.Spec

end
-- ==== Proof.Whole.lean ====
/-
  The two programs' results, each as one function of the eight argument arrays: three layers, a matrix product before
  each, the rectifier after the first two.

  The first program rounds the two operands of every product to a narrower float format before multiplying and
  accumulates in the wider one; the second multiplies the operands as they are. Over the extended reals a change of
  format is the identity and both products are the exact sum of products, so the two differ only in their layers
  (`Spec.layerK`, `Spec.layerR`).
-/
import proofs.«112320_j43233140802156_1_alg».proof.Proof.Spec

noncomputable section

namespace Cert.Whole

open Idealize.ShloMosaic Idealize.ShloMosaic.TcCoe
open Cert.KernelIdeal (S100000x256 S2x1600000 S256x128 S128 S128x128 S100000x128)

variable {F : FTy → Type} [FloatOps F]

/-- The product [N, 256] x [256, 128], whatever the operands' formats. -/
abbrev dotA {φ₁ φ₂ : FTy} (l : FVec F S100000x256 φ₁) (r : FVec F S256x128 φ₂) : FVec F S100000x128 .f32 :=
  Host.dotGeneral Cert.ReferenceIdeal.dot_S100000x256_S256x128_S100000x128_1_0_0_1_n_n none l r

/-- The product [N, 128] x [128, 128], whatever the operands' formats. -/
abbrev dotB {φ₁ φ₂ : FTy} (l : FVec F S100000x128 φ₁) (r : FVec F S128x128 φ₂) : FVec F S100000x128 .f32 :=
  Host.dotGeneral Cert.ReferenceIdeal.dot_S100000x128_S128x128_S100000x128_1_0_0_1_n_n none l r

/-- Rounding to the narrower format, as the first program does to every operand of a product. -/
abbrev narrow {s : Shape} (x : FVec F s .f32) : FVec F s .bf16 := truncf .bf16 x Cert.KernelIdeal.Gen.bitsLt_bf16_f32

/-- The first program: each product of rounded operands, each layer with the node's own term added afterwards. -/
def outK (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x128, .f32⟩ : BufTy).Contents (Elt F)) (x7 : (⟨S128, .f32⟩ : BufTy).Contents (Elt F)) :
    (⟨S100000x128, .f32⟩ : BufTy).Contents (Elt F) :=
  Cert.KernelIdeal.Spec.layerK
    (dotB (narrow (Cert.KernelIdeal.Spec.relu (Cert.KernelIdeal.Spec.layerK
      (dotB (narrow (Cert.KernelIdeal.Spec.relu (Cert.KernelIdeal.Spec.layerK
        (dotA (narrow x0) (narrow x2)) x1 x3))) (narrow x4)) x1 x5))) (narrow x6)) x1 x7

/-- The second program: each product of the operands as they are, each layer over the edge list with the loop edges. -/
def outR (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x128, .f32⟩ : BufTy).Contents (Elt F)) (x7 : (⟨S128, .f32⟩ : BufTy).Contents (Elt F)) :
    (⟨S100000x128, .f32⟩ : BufTy).Contents (Elt F) :=
  Cert.ReferenceIdeal.Spec.layerR
    (dotB (Cert.KernelIdeal.Spec.relu (Cert.ReferenceIdeal.Spec.layerR
      (dotB (Cert.KernelIdeal.Spec.relu (Cert.ReferenceIdeal.Spec.layerR
        (dotA x0 x2) x1 x3)) x4) x1 x5)) x6) x1 x7

end Cert.Whole

end
-- ==== Proof.KernelStages.lean ====
/-
  The first program's stretches of whole-array operations, each read as functions of what it starts from.

  Between the three matrix products the program runs four stretches of whole-array operations. Read from arbitrary
  starting contents `X`:
  * the first stretch computes from the edge list the edges' source and target nodes, the edges' weights and the nodes'
    own weights, and rounds the first product's two operands;
  * the second and third each apply one layer to the product before them, rectify, and round the next product's
    operands;
  * the last applies the third layer to the last product.
  The source and target lists, the two weight arrays and the argument arrays are written once and only read afterwards,
  so every later stretch and every product leaves them as they are (`Carried`).
-/
import proofs.«112320_j43233140802156_1_alg».proof.Proof.Gen.KernelIdeal.Frame
import proofs.«112320_j43233140802156_1_alg».proof.Proof.Whole
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]

/-- The three stretches before a product, from the contents `X`. -/
abbrev pre (X : Valuation τ sig (Elt F)) : Valuation τ sig (Elt F) :=
  StableHlo.after hostOps0_2 (StableHlo.after hostOps0_1 (StableHlo.after hostOps0 X))
abbrev mid1 (X : Valuation τ sig (Elt F)) : Valuation τ sig (Elt F) :=
  StableHlo.after hostOps1_2 (StableHlo.after hostOps1_1 (StableHlo.after hostOps1 X))
abbrev mid2 (X : Valuation τ sig (Elt F)) : Valuation τ sig (Elt F) :=
  StableHlo.after hostOps2_2 (StableHlo.after hostOps2_1 (StableHlo.after hostOps2 X))

/-- Reading one buffer after a stretch: every operation rewritten at once. -/
macro "read_stretch" : tactic =>
  `(tactic| (dsimp only [pre, mid1, mid2, hostOps0, hostOps0_1, hostOps0_2, hostOps1, hostOps1_1, hostOps1_2,
      hostOps2, hostOps2_1, hostOps2_2, hostOps3]; after_results_simp))

/-! ## What each stretch writes -/

theorem pre_src (X : Valuation τ sig (Elt F)) :
    pre X (Proc.devRef .tc main_v1) = Spec.src (X (Proc.devRef .tc main_arg1)) := by
  read_stretch; rfl

theorem pre_dst (X : Valuation τ sig (Elt F)) :
    pre X (Proc.devRef .tc main_v3) = Spec.dst (X (Proc.devRef .tc main_arg1)) := by
  read_stretch; rfl

theorem pre_normEdge (X : Valuation τ sig (Elt F)) :
    pre X (Proc.devRef .tc main_v28) = Spec.normEdge (X (Proc.devRef .tc main_arg1)) := by
  read_stretch; rfl

theorem pre_normSelf (X : Valuation τ sig (Elt F)) :
    pre X (Proc.devRef .tc main_v29) = Spec.normSelf (X (Proc.devRef .tc main_arg1)) := by
  read_stretch; rfl

theorem pre_lhs (X : Valuation τ sig (Elt F)) :
    pre X (Proc.devRef .tc main_v30) = Cert.Whole.narrow (X (Proc.devRef .tc main_arg0)) := by
  read_stretch

theorem pre_rhs (X : Valuation τ sig (Elt F)) :
    pre X (Proc.devRef .tc main_v31) = Cert.Whole.narrow (X (Proc.devRef .tc main_arg2)) := by
  read_stretch

/-- The second stretch: the first layer of the first product, rectified and rounded, is the second product's left
    operand. -/
theorem mid1_lhs (X : Valuation τ sig (Elt F)) :
    mid1 X (Proc.devRef .tc main_v54)
      = Cert.Whole.narrow (Spec.relu (Spec.layerOf (X (Proc.devRef .tc main_v32)) (X (Proc.devRef .tc main_v1))
          (X (Proc.devRef .tc main_v3)) (X (Proc.devRef .tc main_v28)) (X (Proc.devRef .tc main_v29))
          (X (Proc.devRef .tc main_arg3)))) := by
  read_stretch; rfl

theorem mid1_rhs (X : Valuation τ sig (Elt F)) :
    mid1 X (Proc.devRef .tc main_v55) = Cert.Whole.narrow (X (Proc.devRef .tc main_arg4)) := by
  read_stretch

/-- The third stretch: the second layer of the second product, rectified and rounded. -/
theorem mid2_lhs (X : Valuation τ sig (Elt F)) :
    mid2 X (Proc.devRef .tc main_v78)
      = Cert.Whole.narrow (Spec.relu (Spec.layerOf (X (Proc.devRef .tc main_v56)) (X (Proc.devRef .tc main_v1))
          (X (Proc.devRef .tc main_v3)) (X (Proc.devRef .tc main_v28)) (X (Proc.devRef .tc main_v29))
          (X (Proc.devRef .tc main_arg5)))) := by
  read_stretch; rfl

theorem mid2_rhs (X : Valuation τ sig (Elt F)) :
    mid2 X (Proc.devRef .tc main_v79) = Cert.Whole.narrow (X (Proc.devRef .tc main_arg6)) := by
  read_stretch

/-- The last stretch: the third layer of the third product is the result. -/
theorem tail_out (X : Valuation τ sig (Elt F)) :
    StableHlo.after hostOps3 X (Proc.devRef .tc main_v100)
      = Spec.layerOf (X (Proc.devRef .tc main_v80)) (X (Proc.devRef .tc main_v1)) (X (Proc.devRef .tc main_v3))
          (X (Proc.devRef .tc main_v28)) (X (Proc.devRef .tc main_v29)) (X (Proc.devRef .tc main_arg7)) := by
  read_stretch; rfl

/-! ## What every later stretch still reads -/

/-- The contents `X` hold the edges' source and target nodes, the edges' and the nodes' weights of the edge list `x1`, and
    the six later arguments. -/
structure Carried (X : Valuation τ sig (Elt F)) (x1 : (⟨S2x1600000, .i32⟩ : BufTy).Contents (Elt F))
    (x3 : (⟨S128, .f32⟩ : BufTy).Contents (Elt F)) (x4 : (⟨S128x128, .f32⟩ : BufTy).Contents (Elt F))
    (x5 : (⟨S128, .f32⟩ : BufTy).Contents (Elt F)) (x6 : (⟨S128x128, .f32⟩ : BufTy).Contents (Elt F))
    (x7 : (⟨S128, .f32⟩ : BufTy).Contents (Elt F)) : Prop where
  s : X (Proc.devRef .tc main_v1) = Spec.src x1
  d : X (Proc.devRef .tc main_v3) = Spec.dst x1
  ne : X (Proc.devRef .tc main_v28) = Spec.normEdge x1
  ns : X (Proc.devRef .tc main_v29) = Spec.normSelf x1
  a3 : X (Proc.devRef .tc main_arg3) = x3
  a4 : X (Proc.devRef .tc main_arg4) = x4
  a5 : X (Proc.devRef .tc main_arg5) = x5
  a6 : X (Proc.devRef .tc main_arg6) = x6
  a7 : X (Proc.devRef .tc main_arg7) = x7

/-- After the first stretch. -/
theorem carried_pre (X : Valuation τ sig (Elt F)) :
    Carried (pre X) (X (Proc.devRef .tc main_arg1)) (X (Proc.devRef .tc main_arg3)) (X (Proc.devRef .tc main_arg4))
      (X (Proc.devRef .tc main_arg5)) (X (Proc.devRef .tc main_arg6)) (X (Proc.devRef .tc main_arg7)) where
  s := pre_src X
  d := pre_dst X
  ne := pre_normEdge X
  ns := pre_normSelf X
  a3 := by read_stretch
  a4 := by read_stretch
  a5 := by read_stretch
  a6 := by read_stretch
  a7 := by read_stretch

variable {x1 : (⟨S2x1600000, .i32⟩ : BufTy).Contents (Elt F)}
  {x3 : (⟨S128, .f32⟩ : BufTy).Contents (Elt F)} {x4 : (⟨S128x128, .f32⟩ : BufTy).Contents (Elt F)}
  {x5 : (⟨S128, .f32⟩ : BufTy).Contents (Elt F)} {x6 : (⟨S128x128, .f32⟩ : BufTy).Contents (Elt F)}
  {x7 : (⟨S128, .f32⟩ : BufTy).Contents (Elt F)}

/-- The second stretch writes none of them. -/
theorem carried_mid1 {X : Valuation τ sig (Elt F)} (h : Carried X x1 x3 x4 x5 x6 x7) : Carried (mid1 X) x1 x3 x4 x5 x6 x7 where
  s := (show mid1 X (Proc.devRef .tc main_v1) = X (Proc.devRef .tc main_v1) by read_stretch).trans h.s
  d := (show mid1 X (Proc.devRef .tc main_v3) = X (Proc.devRef .tc main_v3) by read_stretch).trans h.d
  ne := (show mid1 X (Proc.devRef .tc main_v28) = X (Proc.devRef .tc main_v28) by read_stretch).trans h.ne
  ns := (show mid1 X (Proc.devRef .tc main_v29) = X (Proc.devRef .tc main_v29) by read_stretch).trans h.ns
  a3 := (show mid1 X (Proc.devRef .tc main_arg3) = X (Proc.devRef .tc main_arg3) by read_stretch).trans h.a3
  a4 := (show mid1 X (Proc.devRef .tc main_arg4) = X (Proc.devRef .tc main_arg4) by read_stretch).trans h.a4
  a5 := (show mid1 X (Proc.devRef .tc main_arg5) = X (Proc.devRef .tc main_arg5) by read_stretch).trans h.a5
  a6 := (show mid1 X (Proc.devRef .tc main_arg6) = X (Proc.devRef .tc main_arg6) by read_stretch).trans h.a6
  a7 := (show mid1 X (Proc.devRef .tc main_arg7) = X (Proc.devRef .tc main_arg7) by read_stretch).trans h.a7

/-- The third stretch writes none of them. -/
theorem carried_mid2 {X : Valuation τ sig (Elt F)} (h : Carried X x1 x3 x4 x5 x6 x7) : Carried (mid2 X) x1 x3 x4 x5 x6 x7 where
  s := (show mid2 X (Proc.devRef .tc main_v1) = X (Proc.devRef .tc main_v1) by read_stretch).trans h.s
  d := (show mid2 X (Proc.devRef .tc main_v3) = X (Proc.devRef .tc main_v3) by read_stretch).trans h.d
  ne := (show mid2 X (Proc.devRef .tc main_v28) = X (Proc.devRef .tc main_v28) by read_stretch).trans h.ne
  ns := (show mid2 X (Proc.devRef .tc main_v29) = X (Proc.devRef .tc main_v29) by read_stretch).trans h.ns
  a3 := (show mid2 X (Proc.devRef .tc main_arg3) = X (Proc.devRef .tc main_arg3) by read_stretch).trans h.a3
  a4 := (show mid2 X (Proc.devRef .tc main_arg4) = X (Proc.devRef .tc main_arg4) by read_stretch).trans h.a4
  a5 := (show mid2 X (Proc.devRef .tc main_arg5) = X (Proc.devRef .tc main_arg5) by read_stretch).trans h.a5
  a6 := (show mid2 X (Proc.devRef .tc main_arg6) = X (Proc.devRef .tc main_arg6) by read_stretch).trans h.a6
  a7 := (show mid2 X (Proc.devRef .tc main_arg7) = X (Proc.devRef .tc main_arg7) by read_stretch).trans h.a7

end Cert.KernelIdeal.Stages

end
-- ==== Proof.KernelValue.lean ====
/-
  The first program's result buffer, at the last boundary of its run, holds `Whole.outK` of the eight arguments.

  The contents at the boundaries are followed from the launch: the first stretch writes the lists, the weights and the
  first product's rounded operands; each product's region replaces its output array by the product of the two arrays
  it was entered with (the three hypotheses `hr0`, `hr1`, `hr2`: proved where the regions' blocks are read) and leaves
  every other buffer; each later stretch applies a layer to the product before it and reads the lists, the weights
  and the arguments where the first stretch and the launch left them.
-/
import proofs.«112320_j43233140802156_1_alg».proof.Proof.KernelStages

set_option maxRecDepth 16384

noncomputable section

namespace Cert.KernelIdeal.Fold

open Cert.KernelIdeal Cert.KernelIdeal.Gen Cert.KernelIdeal.Stages
open Idealize.ShloMosaic Idealize.ShloMosaic.TcCoe Idealize.SL.Sem

variable {F : FTy → Type} [FloatOps F]
variable (m : (ℓ : Loc nD τ sig) → Buf (Elt F) ℓ) (ρ : Dev nD → PrngReg)

variable {x1 : (⟨S2x1600000, .i32⟩ : BufTy).Contents (Elt F)}
  {x3 : (⟨S128, .f32⟩ : BufTy).Contents (Elt F)} {x4 : (⟨S128x128, .f32⟩ : BufTy).Contents (Elt F)}
  {x5 : (⟨S128, .f32⟩ : BufTy).Contents (Elt F)} {x6 : (⟨S128x128, .f32⟩ : BufTy).Contents (Elt F)}
  {x7 : (⟨S128, .f32⟩ : BufTy).Contents (Elt F)}

/-- The first product writes only its own output array. -/
theorem carried_reg0 (c : Dev nD) (h : Carried (W3 m ρ c) x1 x3 x4 x5 x6 x7) : Carried (W4 m ρ c) x1 x3 x4 x5 x6 x7 where
  s := (W4_of_ne m ρ c main_v1 (by decide)).trans h.s
  d := (W4_of_ne m ρ c main_v3 (by decide)).trans h.d
  ne := (W4_of_ne m ρ c main_v28 (by decide)).trans h.ne
  ns := (W4_of_ne m ρ c main_v29 (by decide)).trans h.ns
  a3 := (W4_of_ne m ρ c main_arg3 (by decide)).trans h.a3
  a4 := (W4_of_ne m ρ c main_arg4 (by decide)).trans h.a4
  a5 := (W4_of_ne m ρ c main_arg5 (by decide)).trans h.a5
  a6 := (W4_of_ne m ρ c main_arg6 (by decide)).trans h.a6
  a7 := (W4_of_ne m ρ c main_arg7 (by decide)).trans h.a7

/-- The second product writes only its own output array. -/
theorem carried_reg1 (c : Dev nD) (h : Carried (W7 m ρ c) x1 x3 x4 x5 x6 x7) : Carried (W8 m ρ c) x1 x3 x4 x5 x6 x7 where
  s := (W8_of_ne m ρ c main_v1 (by decide)).trans h.s
  d := (W8_of_ne m ρ c main_v3 (by decide)).trans h.d
  ne := (W8_of_ne m ρ c main_v28 (by decide)).trans h.ne
  ns := (W8_of_ne m ρ c main_v29 (by decide)).trans h.ns
  a3 := (W8_of_ne m ρ c main_arg3 (by decide)).trans h.a3
  a4 := (W8_of_ne m ρ c main_arg4 (by decide)).trans h.a4
  a5 := (W8_of_ne m ρ c main_arg5 (by decide)).trans h.a5
  a6 := (W8_of_ne m ρ c main_arg6 (by decide)).trans h.a6
  a7 := (W8_of_ne m ρ c main_arg7 (by decide)).trans h.a7

/-- The third product writes only its own output array. -/
theorem carried_reg2 (c : Dev nD) (h : Carried (W11 m ρ c) x1 x3 x4 x5 x6 x7) : Carried (W12 m ρ c) x1 x3 x4 x5 x6 x7 where
  s := (W12_of_ne m ρ c main_v1 (by decide)).trans h.s
  d := (W12_of_ne m ρ c main_v3 (by decide)).trans h.d
  ne := (W12_of_ne m ρ c main_v28 (by decide)).trans h.ne
  ns := (W12_of_ne m ρ c main_v29 (by decide)).trans h.ns
  a3 := (W12_of_ne m ρ c main_arg3 (by decide)).trans h.a3
  a4 := (W12_of_ne m ρ c main_arg4 (by decide)).trans h.a4
  a5 := (W12_of_ne m ρ c main_arg5 (by decide)).trans h.a5
  a6 := (W12_of_ne m ρ c main_arg6 (by decide)).trans h.a6
  a7 := (W12_of_ne m ρ c main_arg7 (by decide)).trans h.a7

/-- THE RESULT: what the result buffer holds when the program returns. -/
theorem value
    (hr0 : ∀ (V : (c : Dev nD) → (b : Ref sig .tc) → Buf (Elt F) ((c : Thread nD τ).loc b)) (c : Dev nD),
      (dat0 (F := F) V c).arrAt 2 cfg0.N = Cert.Whole.dotA (φ₁ := .bf16) (φ₂ := .bf16) (V c main_v30) (V c main_v31))
    (hr1 : ∀ (V : (c : Dev nD) → (b : Ref sig .tc) → Buf (Elt F) ((c : Thread nD τ).loc b)) (c : Dev nD),
      (dat1 (F := F) V c).arrAt 2 cfg1.N = Cert.Whole.dotB (φ₁ := .bf16) (φ₂ := .bf16) (V c main_v54) (V c main_v55))
    (hr2 : ∀ (V : (c : Dev nD) → (b : Ref sig .tc) → Buf (Elt F) ((c : Thread nD τ).loc b)) (c : Dev nD),
      (dat2 (F := F) V c).arrAt 2 cfg2.N = Cert.Whole.dotB (φ₁ := .bf16) (φ₂ := .bf16) (V c main_v78) (V c main_v79))
    (c : Dev nD) :
    W13 m ρ c (Proc.devRef .tc main_v100)
      = Cert.Whole.outK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  -- the first stretch, from the launch memory
  have C3 : Carried (W3 m ρ c) (m ((c.tc : Thread nD τ).loc main_arg1)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := carried_pre (W0 m ρ c)
  have l0 : W3 m ρ c (Proc.devRef .tc main_v30) = Cert.Whole.narrow (m ((c.tc : Thread nD τ).loc main_arg0)) := pre_lhs (W0 m ρ c)
  have r0 : W3 m ρ c (Proc.devRef .tc main_v31) = Cert.Whole.narrow (m ((c.tc : Thread nD τ).loc main_arg2)) := pre_rhs (W0 m ρ c)
  -- the first product
  have C4 := carried_reg0 m ρ c C3
  have p0 : W4 m ρ c (Proc.devRef .tc main_v32)
      = Cert.Whole.dotA (Cert.Whole.narrow (m ((c.tc : Thread nD τ).loc main_arg0))) (Cert.Whole.narrow (m ((c.tc : Thread nD τ).loc main_arg2))) :=
    (W4_arr m ρ c 2).trans ((hr0 (V3 m ρ) c).trans (by rw [show V3 m ρ c main_v30 = _ from l0, show V3 m ρ c main_v31 = _ from r0]))
  -- the second stretch
  have C7 : Carried (W7 m ρ c) _ _ _ _ _ _ := carried_mid1 C4
  have l1 : W7 m ρ c (Proc.devRef .tc main_v54) = _ := (mid1_lhs (W4 m ρ c)).trans (by rw [p0, C4.s, C4.d, C4.ne, C4.ns, C4.a3])
  have r1 : W7 m ρ c (Proc.devRef .tc main_v55) = _ := (mid1_rhs (W4 m ρ c)).trans (by rw [C4.a4])
  -- the second product
  have C8 := carried_reg1 m ρ c C7
  have p1 : W8 m ρ c (Proc.devRef .tc main_v56) = _ :=
    (W8_arr m ρ c 2).trans ((hr1 (V7 m ρ) c).trans (by rw [show V7 m ρ c main_v54 = _ from l1, show V7 m ρ c main_v55 = _ from r1]))
  -- the third stretch
  have C11 : Carried (W11 m ρ c) _ _ _ _ _ _ := carried_mid2 C8
  have l2 : W11 m ρ c (Proc.devRef .tc main_v78) = _ := (mid2_lhs (W8 m ρ c)).trans (by rw [p1, C8.s, C8.d, C8.ne, C8.ns, C8.a5])
  have r2 : W11 m ρ c (Proc.devRef .tc main_v79) = _ := (mid2_rhs (W8 m ρ c)).trans (by rw [C8.a6])
  -- the third product
  have C12 := carried_reg2 m ρ c C11
  have p2 : W12 m ρ c (Proc.devRef .tc main_v80) = _ :=
    (W12_arr m ρ c 2).trans ((hr2 (V11 m ρ) c).trans (by rw [show V11 m ρ c main_v78 = _ from l2, show V11 m ρ c main_v79 = _ from r2]))
  -- the last stretch
  refine (tail_out (W12 m ρ c)).trans ?_
  rw [p2, C12.s, C12.d, C12.ne, C12.ns, C12.a7]
  rfl

end Cert.KernelIdeal.Fold

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.MatmulSpec.lean ====
/-
  The plain matrix product over the extended reals, and the two spellings of it that the programs use.

  For x of shape [N, K] and w of shape [K, M], `plainProd x w` is the array of shape [N, M] whose entry (p, q) is
  the sum over k : Fin K of x (p, k) · w (k, q). At the extended reals both a matrix-unit product into a zero
  accumulator and the host's dot_general, with dimension numbers that contract the left operand's axis 1 against
  the right operand's axis 0, are this array: the contraction's sum re-indexed by the contracted coordinate
  (LibDotPlain). The facts are then read off for the four printed dimension-number records: the kernel bodies'
  [5000, 256] × [256, 128] and [5000, 128] × [128, 128], and the reference's [100000, 256] × [256, 128] and
  [100000, 128] × [128, 128]; and each kernel body's payload (two casts to the same shape, then the product into a
  zero accumulator) is the plain product of the blocks it loaded.
-/
import proofs.«112320_j43233140802156_1_alg».proof.Proof.Gen.KernelIdeal.Skeleton
import proofs.«112320_j43233140802156_1_alg».proof.Proof.Gen.ReferenceIdeal
import proofs.«112320_j43233140802156_1_alg».proof.Proof.LibDotPlain
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.Matmul

open Idealize.ShloMosaic Idealize.ShloMosaic.ValueIdx

/-- The plain product of x : [N, K] and w : [K, M]: entry (p, q) is ∑ k, x (p, k) · w (k, q). -/
def plainProd {N K M : Nat} (x : (⟨2, ![N, K]⟩ : Shape).Idx → EReal) (w : (⟨2, ![K, M]⟩ : Shape).Idx → EReal) :
    (⟨2, ![N, M]⟩ : Shape).Idx → EReal :=
  fun i => ∑ k : Fin K, x (ix2 (⟨(i 0).val, (i 0).isLt⟩ : Fin N) k) * w (ix2 k (⟨(i 1).val, (i 1).isLt⟩ : Fin M))

/-- The plain product at an entry given by its two coordinates. -/
theorem plainProd_ix2 {N K M : Nat} (x : (⟨2, ![N, K]⟩ : Shape).Idx → EReal) (w : (⟨2, ![K, M]⟩ : Shape).Idx → EReal)
    (p : Fin N) (q : Fin M) : plainProd x w (ix2 p q) = ∑ k : Fin K, x (ix2 p k) * w (ix2 k q) := rfl

/-- The host's dot_general with one contracted axis (left axis 1 against right axis 0) is the plain product. -/
theorem hostDot_eq_plainProd {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (x : FVec Ideal ⟨2, ![N, K]⟩ φ₁) (w : FVec Ideal ⟨2, ![K, M]⟩ φ₂) :
    Host.dotGeneral (F := Ideal) D prec x w = plainProd x w := by
  funext i
  obtain ⟨p, q, rfl⟩ : ∃ (p : Fin N) (q : Fin M), i = ix2 p q := ⟨i 0, i 1, eq_ix2 i⟩
  simp only [Host.dotGeneral]
  rw [Ideal.dotGeneral_apply]
  exact Cert.LibDotPlain.sum_contr_plain D hr hs hl0 hl1 hr0 hr1 x w p q

/-- A matrix-unit product into a zero accumulator, same dimension numbers, is the plain product. -/
theorem matmulZero_eq_plainProd {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (x : FVec Ideal ⟨2, ![N, K]⟩ φ₁) (w : FVec Ideal ⟨2, ![K, M]⟩ φ₂) :
    FloatOps.matmul D prec x w (constant ⟨2, ![N, M]⟩ .f32 0x00000000#32) = plainProd x w := by
  funext i
  obtain ⟨p, q, rfl⟩ : ∃ (p : Fin N) (q : Fin M), i = ix2 p q := ⟨i 0, i 1, eq_ix2 i⟩
  exact Cert.LibDotPlain.matmul_zero_plain D hr hs hl0 hl1 hr0 hr1 prec x w p q

/-! ## The four printed dimension-number records: where each reads its operands, coordinate by coordinate -/

/-! ### The kernel bodies' [5000, 256] × [256, 128] -/

theorem bodyDot256_l0 (i : Cert.KernelIdeal.S5000x128.Idx) (k : Cert.KernelIdeal.dot_S5000x256_S256x128_S5000x128_1_0_0_1_n_n.contr.Idx) :
    (Cert.KernelIdeal.dot_S5000x256_S256x128_S5000x128_1_0_0_1_n_n.lhsIdx i k 0).val = (i 0).val := by
  unfold DotDims.lhsIdx
  rw [dif_neg (show ¬(0 : Fin Cert.KernelIdeal.S5000x256.rank) ∈ Cert.KernelIdeal.dot_S5000x256_S256x128_S5000x128_1_0_0_1_n_n.lhsBatch by decide),
    dif_pos (show (0 : Fin Cert.KernelIdeal.S5000x256.rank) ∈ Cert.KernelIdeal.dot_S5000x256_S256x128_S5000x128_1_0_0_1_n_n.lhsNonContracting by decide)]
  rfl
theorem bodyDot256_l1 (i : Cert.KernelIdeal.S5000x128.Idx) (k : Cert.KernelIdeal.dot_S5000x256_S256x128_S5000x128_1_0_0_1_n_n.contr.Idx) :
    (Cert.KernelIdeal.dot_S5000x256_S256x128_S5000x128_1_0_0_1_n_n.lhsIdx i k 1).val = (k ⟨0, by decide⟩).val :=
  Cert.KernelIdeal.dot_S5000x256_S256x128_S5000x128_1_0_0_1_n_n.lhsIdx_val_of_single rfl i k
theorem bodyDot256_r0 (i : Cert.KernelIdeal.S5000x128.Idx) (k : Cert.KernelIdeal.dot_S5000x256_S256x128_S5000x128_1_0_0_1_n_n.contr.Idx) :
    (Cert.KernelIdeal.dot_S5000x256_S256x128_S5000x128_1_0_0_1_n_n.rhsIdx i k 0).val = (k ⟨0, by decide⟩).val :=
  Cert.KernelIdeal.dot_S5000x256_S256x128_S5000x128_1_0_0_1_n_n.rhsIdx_val_of_single rfl i k
theorem bodyDot256_r1 (i : Cert.KernelIdeal.S5000x128.Idx) (k : Cert.KernelIdeal.dot_S5000x256_S256x128_S5000x128_1_0_0_1_n_n.contr.Idx) :
    (Cert.KernelIdeal.dot_S5000x256_S256x128_S5000x128_1_0_0_1_n_n.rhsIdx i k 1).val = (i 1).val := by
  unfold DotDims.rhsIdx
  rw [dif_neg (show ¬(1 : Fin Cert.KernelIdeal.S256x128.rank) ∈ Cert.KernelIdeal.dot_S5000x256_S256x128_S5000x128_1_0_0_1_n_n.rhsBatch by decide),
    dif_pos (show (1 : Fin Cert.KernelIdeal.S256x128.rank) ∈ Cert.KernelIdeal.dot_S5000x256_S256x128_S5000x128_1_0_0_1_n_n.rhsNonContracting by decide)]
  rfl

/-! ### The kernel bodies' [5000, 128] × [128, 128] -/

theorem bodyDot128_l0 (i : Cert.KernelIdeal.S5000x128.Idx) (k : Cert.KernelIdeal.dot_S5000x128_S128x128_S5000x128_1_0_0_1_n_n.contr.Idx) :
    (Cert.KernelIdeal.dot_S5000x128_S128x128_S5000x128_1_0_0_1_n_n.lhsIdx i k 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide),
    dif_pos (show (0 : Fin Cert.KernelIdeal.S5000x128.rank) ∈ Cert.KernelIdeal.dot_S5000x128_S128x128_S5000x128_1_0_0_1_n_n.lhsNonContracting by decide)]
  rfl
theorem bodyDot128_l1 (i : Cert.KernelIdeal.S5000x128.Idx) (k : Cert.KernelIdeal.dot_S5000x128_S128x128_S5000x128_1_0_0_1_n_n.contr.Idx) :
    (Cert.KernelIdeal.dot_S5000x128_S128x128_S5000x128_1_0_0_1_n_n.lhsIdx i k 1).val = (k ⟨0, by decide⟩).val :=
  Cert.KernelIdeal.dot_S5000x128_S128x128_S5000x128_1_0_0_1_n_n.lhsIdx_val_of_single rfl i k
theorem bodyDot128_r0 (i : Cert.KernelIdeal.S5000x128.Idx) (k : Cert.KernelIdeal.dot_S5000x128_S128x128_S5000x128_1_0_0_1_n_n.contr.Idx) :
    (Cert.KernelIdeal.dot_S5000x128_S128x128_S5000x128_1_0_0_1_n_n.rhsIdx i k 0).val = (k ⟨0, by decide⟩).val :=
  Cert.KernelIdeal.dot_S5000x128_S128x128_S5000x128_1_0_0_1_n_n.rhsIdx_val_of_single rfl i k
theorem bodyDot128_r1 (i : Cert.KernelIdeal.S5000x128.Idx) (k : Cert.KernelIdeal.dot_S5000x128_S128x128_S5000x128_1_0_0_1_n_n.contr.Idx) :
    (Cert.KernelIdeal.dot_S5000x128_S128x128_S5000x128_1_0_0_1_n_n.rhsIdx i k 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide),
    dif_pos (show (1 : Fin Cert.KernelIdeal.S128x128.rank) ∈ Cert.KernelIdeal.dot_S5000x128_S128x128_S5000x128_1_0_0_1_n_n.rhsNonContracting by decide)]
  rfl

/-! ### The reference's [100000, 256] × [256, 128] -/

theorem refDot256_l0 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.lhsIdx i k 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide),
    dif_pos (show (0 : Fin Cert.ReferenceIdeal.S100000x256.rank) ∈ Cert.ReferenceIdeal.dot_S100000x256_S256x128_S100000x128_1_0_0_1_n_n.lhsNonContracting by decide)]
  rfl
theorem refDot256_l1 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.lhsIdx i k 1).val = (k ⟨0, by decide⟩).val :=
  Cert.ReferenceIdeal.dot_S100000x256_S256x128_S100000x128_1_0_0_1_n_n.lhsIdx_val_of_single rfl i k
theorem refDot256_r0 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.rhsIdx i k 0).val = (k ⟨0, by decide⟩).val :=
  Cert.ReferenceIdeal.dot_S100000x256_S256x128_S100000x128_1_0_0_1_n_n.rhsIdx_val_of_single rfl i k
theorem refDot256_r1 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.rhsIdx i k 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide),
    dif_pos (show (1 : Fin Cert.ReferenceIdeal.S256x128.rank) ∈ Cert.ReferenceIdeal.dot_S100000x256_S256x128_S100000x128_1_0_0_1_n_n.rhsNonContracting by decide)]
  rfl

/-! ### The reference's [100000, 128] × [128, 128] -/

theorem refDot128_l0 (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx i k 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl
theorem refDot128_l1 (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k
theorem refDot128_r0 (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k
theorem refDot128_r1 (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx i k 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-! ## The reference's two products are plain products -/

theorem refDot256_eq_plainProd (x : FVec Ideal Cert.ReferenceIdeal.S100000x256 .bf16) (w : FVec Ideal Cert.ReferenceIdeal.S256x128 .bf16) :
    Host.dotGeneral (F := Ideal) Cert.ReferenceIdeal.dot_S100000x256_S256x128_S100000x128_1_0_0_1_n_n none x w = plainProd x w :=
  hostDot_eq_plainProd Cert.ReferenceIdeal.dot_S100000x256_S256x128_S100000x128_1_0_0_1_n_n rfl rfl refDot256_l0 refDot256_l1 refDot256_r0 refDot256_r1 none x w

theorem refDot128_eq_plainProd (x : FVec Ideal Cert.ReferenceIdeal.S100000x128 .bf16) (w : FVec Ideal Cert.ReferenceIdeal.S128x128 .bf16) :
    Host.dotGeneral (F := Ideal) Cert.ReferenceIdeal.dot_S100000x128_S128x128_S100000x128_1_0_0_1_n_n none x w = plainProd x w :=
  hostDot_eq_plainProd Cert.ReferenceIdeal.dot_S100000x128_S128x128_S100000x128_1_0_0_1_n_n rfl rfl refDot128_l0 refDot128_l1 refDot128_r0 refDot128_r1 none x w

/-! ## Each kernel body's payload is the plain product of the two blocks it loaded -/

theorem k0_pay1_eq_plainProd (x0 : FVec Ideal Cert.KernelIdeal.S5000x256 .bf16) (x1 : FVec Ideal Cert.KernelIdeal.S256x128 .bf16) :
    Cert.KernelIdeal.Gen.k0_pay1 (F := Ideal) x0 x1 = plainProd x0 x1 := by
  unfold Cert.KernelIdeal.Gen.k0_pay1
  rw [shapeCast_self, shapeCast_self]
  exact matmulZero_eq_plainProd Cert.KernelIdeal.dot_S5000x256_S256x128_S5000x128_1_0_0_1_n_n rfl rfl bodyDot256_l0 bodyDot256_l1 bodyDot256_r0 bodyDot256_r1 none x0 x1

theorem k1_pay1_eq_plainProd (x0 : FVec Ideal Cert.KernelIdeal.S5000x128 .bf16) (x1 : FVec Ideal Cert.KernelIdeal.S128x128 .bf16) :
    Cert.KernelIdeal.Gen.k1_pay1 (F := Ideal) x0 x1 = plainProd x0 x1 := by
  unfold Cert.KernelIdeal.Gen.k1_pay1
  rw [shapeCast_self, shapeCast_self]
  exact matmulZero_eq_plainProd Cert.KernelIdeal.dot_S5000x128_S128x128_S5000x128_1_0_0_1_n_n rfl rfl bodyDot128_l0 bodyDot128_l1 bodyDot128_r0 bodyDot128_r1 none x0 x1

theorem k2_pay1_eq_plainProd (x0 : FVec Ideal Cert.KernelIdeal.S5000x128 .bf16) (x1 : FVec Ideal Cert.KernelIdeal.S128x128 .bf16) :
    Cert.KernelIdeal.Gen.k2_pay1 (F := Ideal) x0 x1 = plainProd x0 x1 := by
  unfold Cert.KernelIdeal.Gen.k2_pay1
  rw [shapeCast_self, shapeCast_self]
  exact matmulZero_eq_plainProd Cert.KernelIdeal.dot_S5000x128_S128x128_S5000x128_1_0_0_1_n_n rfl rfl bodyDot128_l0 bodyDot128_l1 bodyDot128_r0 bodyDot128_r1 none x0 x1

end Cert.KernelIdeal.Matmul

end
-- ==== Proof.MatmulRegion0.lean ====
/-
  The value of matrix-product region 0: after its 20 grid points the output array is the plain product of the two
  arrays the region was entered with.

  The region's grid has 20 points; point t stages rows 5000·t … 5000·t + 4999 of the left operand [100000, 256]
  (window 0, block (t, 0)), the whole weight matrix [256, 128] (window 1, block (0, 0)), and writes back rows
  5000·t … 5000·t + 4999 of the output [100000, 128] (window 2, block (t, 0)). The body's payload is the plain
  product of the two staged blocks (MatmulSpec), so what point t writes back is block t of the plain product of the
  two whole arrays: row p of the left block is row 5000·t + p of the array, and the weights' block is the array.
  Every row r of the output lies in the block of point r / 5000, so the 20 blocks cover the array, and the array
  ends holding the plain product — which is what the host's dot_general of the same two arrays is.
-/
import proofs.«112320_j43233140802156_1_alg».proof.Proof.Gen.KernelIdeal.Frame
import proofs.«112320_j43233140802156_1_alg».proof.Proof.MatmulSpec
import Idealize.ShloMosaic.Lib.Pipeline.Value

noncomputable section

open scoped BigOperators

namespace Cert.KernelIdeal.Matmul

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin0 : (![0, 0] : Fin 2 → Nat) = fun _ => 0 := funext fun a => by fin_cases a <;> rfl

/-- The three windows' block indices at grid point t, decided over the 20 points: the left operand's and the
    output's block is (t, 0), the weights' is (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point t is entry (5000·t + p, k) of the array. -/
theorem leftBlock0 (c : Dev nD) (t : Fin cfg0.N) (y : S5000x256.Idx) (i : S100000x256.Idx)
    (h0 : (i 0).val = t.val * 5000 + (y 0).val) (h1 : (i 1).val = (y 1).val) :
    iblk0 V c 0 t y = V c main_v30 i := by
  obtain ⟨e0, e1, -, -, -, -⟩ := blockIdx0 t
  show V c main_v30 (((cfg0.win 0).blk t).view.emb y) = V c main_v30 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The weights' block at every point is the whole weight matrix. -/
theorem weightBlock0 (c : Dev nD) (t : Fin cfg0.N) (y : S256x128.Idx) (i : S256x128.Idx)
    (h0 : (i 0).val = (y 0).val) (h1 : (i 1).val = (y 1).val) :
    iblk0 V c 1 t y = V c main_v31 i := by
  obtain ⟨-, -, e2, e3, -, -⟩ := blockIdx0 t
  show V c main_v31 (((cfg0.win 1).blk t).view.emb y) = V c main_v31 i
  refine congrArg _ (funext fun a => Fin.ext ?_)
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- Entry (p, q) of the output's block at point t sits at entry (5000·t + p, q) of the array. -/
theorem outBlock0 (t : Fin cfg0.N) (j : S5000x128.Idx) :
    ((((cfg0.win 2).blk t).view.emb j) 0).val = t.val * 5000 + (j 0).val
      ∧ ((((cfg0.win 2).blk t).view.emb j) 1).val = (j 1).val := by
  obtain ⟨-, -, -, -, e4, e5⟩ := blockIdx0 t
  constructor
  · show win0_2.index t (0 : Fin 2) * 5000 + 1 * (j 0).val = t.val * 5000 + (j 0).val; omega
  · show win0_2.index t (1 : Fin 2) * 128 + 1 * (j 1).val = (j 1).val; omega

/-- The plain product of a row block of x with w, at an entry, is the plain product of x with w at the entry the
    block's row sits at. -/
theorem plainProd_rowBlock0 (X : S100000x256.Idx → EReal) (W : S256x128.Idx → EReal)
    (x0 : S5000x256.Idx → EReal) (x1 : S256x128.Idx → EReal) (off : Nat)
    (hx0 : ∀ (y : S5000x256.Idx) (i : S100000x256.Idx), (i 0).val = off + (y 0).val → (i 1).val = (y 1).val → x0 y = X i)
    (hx1 : ∀ (y : S256x128.Idx) (i : S256x128.Idx), (i 0).val = (y 0).val → (i 1).val = (y 1).val → x1 y = W i)
    (j : S5000x128.Idx) (i : S100000x128.Idx) (h0 : (i 0).val = off + (j 0).val) (h1 : (i 1).val = (j 1).val) :
    plainProd (N := 5000) (K := 256) (M := 128) x0 x1 j = plainProd (N := 100000) (K := 256) (M := 128) X W i := by
  unfold plainProd
  refine Finset.sum_congr rfl fun k _ => ?_
  refine congrArg₂ (· * ·) (hx0 _ _ h0 rfl) (hx1 _ _ rfl h1)

/-- What grid point t writes back is block t of the plain product of the two arrays the region was entered with. -/
theorem flushed0_eq (c : Dev nD) (t : Fin cfg0.N) :
    (dat0 (F := Ideal) V c).flushed 2 t
      = ((cfg0.win 2).blk t).view.read (Elt Ideal) (plainProd (N := 100000) (K := 256) (M := 128) (V c main_v30) (V c main_v31)) := by
  show (cfg0.win 2).cut (grid0.coords t) ((dat0 V c).after 2 t) = _
  rw [after0_2]
  unfold out0_2
  rw [View.canon_unit_zero origin0]
  simp only [View.ld_unit_zero (S := S5000x256) origin0, View.ld_unit_zero (S := S256x128) origin0]
  rw [k0_pay1_eq_plainProd]
  funext j
  obtain ⟨o0, o1⟩ := outBlock0 t j
  exact plainProd_rowBlock0 (V c main_v30) (V c main_v31) _ _ (t.val * 5000)
    (fun y i h0 h1 => leftBlock0 V c t y i h0 h1) (fun y i h0 h1 => weightBlock0 V c t y i h0 h1)
    _ (((cfg0.win 2).blk t).view.emb j) o0 o1

/-- An index of the output array is in point t's block iff each coordinate is in the block's range on its axis. -/
theorem mem_outBlock0 (t : Fin cfg0.N) (i : S100000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The 20 blocks cover the output array: row r lies in the block of point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, e4, e5⟩ := blockIdx0 t
  refine ⟨t, flush0_2 t, ?_⟩
  rw [mem_outBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region's 20 grid points the output array is the host's dot_general of the two arrays the region was
    entered with. -/
theorem region0_value (V : (c : Dev nD) → (b : Ref sig .tc) → Buf (Elt Ideal) ((c : Thread nD τ).loc b)) (c : Dev nD) :
    (dat0 (F := Ideal) V c).arrAt 2 cfg0.N
      = Host.dotGeneral (F := Ideal) (φ₁ := .bf16) (φ₂ := .bf16) Cert.ReferenceIdeal.dot_S100000x256_S256x128_S100000x128_1_0_0_1_n_n none
          (V c main_v30) (V c main_v31) :=
  ((dat0 (F := Ideal) V c).arrAt_eq_of_cover 2 (plainProd (N := 100000) (K := 256) (M := 128) (V c main_v30) (V c main_v31))
      (fun t _ => flushed0_eq V c t) cover0).trans
    (refDot256_eq_plainProd (V c main_v30) (V c main_v31)).symm

end Cert.KernelIdeal.Matmul

end
-- ==== Proof.MatmulRegion1.lean ====
/-
  The value of matrix-product region 1: after its 20 grid points the output array is the plain product of the two
  arrays the region was entered with.

  The region's grid has 20 points; point t stages rows 5000·t … 5000·t + 4999 of the left operand [100000, 128]
  (window 0, block (t, 0)), the whole weight matrix [128, 128] (window 1, block (0, 0)), and writes back rows
  5000·t … 5000·t + 4999 of the output [100000, 128] (window 2, block (t, 0)). The body's payload is the plain
  product of the two staged blocks (MatmulSpec), so what point t writes back is block t of the plain product of the
  two whole arrays: row p of the left block is row 5000·t + p of the array, and the weights' block is the array.
  Every row r of the output lies in the block of point r / 5000, so the 20 blocks cover the array, and the array
  ends holding the plain product — which is what the host's dot_general of the same two arrays is.
-/
import proofs.«112320_j43233140802156_1_alg».proof.Proof.Gen.KernelIdeal.Frame
import proofs.«112320_j43233140802156_1_alg».proof.Proof.MatmulSpec
import Idealize.ShloMosaic.Lib.Pipeline.Value

noncomputable section

open scoped BigOperators

namespace Cert.KernelIdeal.Matmul

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin1 : (![0, 0] : Fin 2 → Nat) = fun _ => 0 := funext fun a => by fin_cases a <;> rfl

/-- The three windows' block indices at grid point t, decided over the 20 points: the left operand's and the
    output's block is (t, 0), the weights' is (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left operand's block at point t is entry (5000·t + p, k) of the array. -/
theorem leftBlock1 (c : Dev nD) (t : Fin cfg1.N) (y : S5000x128.Idx) (i : S100000x128.Idx)
    (h0 : (i 0).val = t.val * 5000 + (y 0).val) (h1 : (i 1).val = (y 1).val) :
    iblk1 V c 0 t y = V c main_v54 i := by
  obtain ⟨e0, e1, -, -, -, -⟩ := blockIdx1 t
  show V c main_v54 (((cfg1.win 0).blk t).view.emb y) = V c main_v54 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The weights' block at every point is the whole weight matrix. -/
theorem weightBlock1 (c : Dev nD) (t : Fin cfg1.N) (y : S128x128.Idx) (i : S128x128.Idx)
    (h0 : (i 0).val = (y 0).val) (h1 : (i 1).val = (y 1).val) :
    iblk1 V c 1 t y = V c main_v55 i := by
  obtain ⟨-, -, e2, e3, -, -⟩ := blockIdx1 t
  show V c main_v55 (((cfg1.win 1).blk t).view.emb y) = V c main_v55 i
  refine congrArg _ (funext fun a => Fin.ext ?_)
  match a with
  | ⟨0, _⟩ => show win1_1.index t (0 : Fin 2) * 128 + 1 * (y 0).val = (i 0).val; omega
  | ⟨1, _⟩ => show win1_1.index t (1 : Fin 2) * 128 + 1 * (y 1).val = (i 1).val; omega

/-- Entry (p, q) of the output's block at point t sits at entry (5000·t + p, q) of the array. -/
theorem outBlock1 (t : Fin cfg1.N) (j : S5000x128.Idx) :
    ((((cfg1.win 2).blk t).view.emb j) 0).val = t.val * 5000 + (j 0).val
      ∧ ((((cfg1.win 2).blk t).view.emb j) 1).val = (j 1).val := by
  obtain ⟨-, -, -, -, e4, e5⟩ := blockIdx1 t
  constructor
  · show win1_2.index t (0 : Fin 2) * 5000 + 1 * (j 0).val = t.val * 5000 + (j 0).val; omega
  · show win1_2.index t (1 : Fin 2) * 128 + 1 * (j 1).val = (j 1).val; omega

/-- The plain product of a row block of x with w, at an entry, is the plain product of x with w at the entry the
    block's row sits at. -/
theorem plainProd_rowBlock1 (X : S100000x128.Idx → EReal) (W : S128x128.Idx → EReal)
    (x0 : S5000x128.Idx → EReal) (x1 : S128x128.Idx → EReal) (off : Nat)
    (hx0 : ∀ (y : S5000x128.Idx) (i : S100000x128.Idx), (i 0).val = off + (y 0).val → (i 1).val = (y 1).val → x0 y = X i)
    (hx1 : ∀ (y : S128x128.Idx) (i : S128x128.Idx), (i 0).val = (y 0).val → (i 1).val = (y 1).val → x1 y = W i)
    (j : S5000x128.Idx) (i : S100000x128.Idx) (h0 : (i 0).val = off + (j 0).val) (h1 : (i 1).val = (j 1).val) :
    plainProd (N := 5000) (K := 128) (M := 128) x0 x1 j = plainProd (N := 100000) (K := 128) (M := 128) X W i := by
  unfold plainProd
  refine Finset.sum_congr rfl fun k _ => ?_
  refine congrArg₂ (· * ·) (hx0 _ _ h0 rfl) (hx1 _ _ rfl h1)

/-- What grid point t writes back is block t of the plain product of the two arrays the region was entered with. -/
theorem flushed1_eq (c : Dev nD) (t : Fin cfg1.N) :
    (dat1 (F := Ideal) V c).flushed 2 t
      = ((cfg1.win 2).blk t).view.read (Elt Ideal) (plainProd (N := 100000) (K := 128) (M := 128) (V c main_v54) (V c main_v55)) := by
  show (cfg1.win 2).cut (grid1.coords t) ((dat1 V c).after 2 t) = _
  rw [after1_2]
  unfold out1_2
  rw [View.canon_unit_zero origin1]
  simp only [View.ld_unit_zero (S := S5000x128) origin1, View.ld_unit_zero (S := S128x128) origin1]
  rw [k1_pay1_eq_plainProd]
  funext j
  obtain ⟨o0, o1⟩ := outBlock1 t j
  exact plainProd_rowBlock1 (V c main_v54) (V c main_v55) _ _ (t.val * 5000)
    (fun y i h0 h1 => leftBlock1 V c t y i h0 h1) (fun y i h0 h1 => weightBlock1 V c t y i h0 h1)
    _ (((cfg1.win 2).blk t).view.emb j) o0 o1

/-- An index of the output array is in point t's block iff each coordinate is in the block's range on its axis. -/
theorem mem_outBlock1 (t : Fin cfg1.N) (i : S100000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v56).slice (win1_2.rect t)).set ↔ _
  rw [View.set_slice_whole, Rect.mem_set_unit]
  exact Iff.rfl

/-- The 20 blocks cover the output array: row r lies in the block of point r / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, e4, e5⟩ := blockIdx1 t
  refine ⟨t, flush1_2 t, ?_⟩
  rw [mem_outBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region's 20 grid points the output array is the host's dot_general of the two arrays the region was
    entered with. -/
theorem region1_value (V : (c : Dev nD) → (b : Ref sig .tc) → Buf (Elt Ideal) ((c : Thread nD τ).loc b)) (c : Dev nD) :
    (dat1 (F := Ideal) V c).arrAt 2 cfg1.N
      = Host.dotGeneral (F := Ideal) (φ₁ := .bf16) (φ₂ := .bf16) Cert.ReferenceIdeal.dot_S100000x128_S128x128_S100000x128_1_0_0_1_n_n none
          (V c main_v54) (V c main_v55) :=
  ((dat1 (F := Ideal) V c).arrAt_eq_of_cover 2 (plainProd (N := 100000) (K := 128) (M := 128) (V c main_v54) (V c main_v55))
      (fun t _ => flushed1_eq V c t) cover1).trans
    (refDot128_eq_plainProd (V c main_v54) (V c main_v55)).symm

end Cert.KernelIdeal.Matmul

end
-- ==== Proof.MatmulRegion2.lean ====
/-
  The value of matrix-product region 2: after its 20 grid points the output array is the plain product of the two
  arrays the region was entered with.

  The region's grid has 20 points; point t stages rows 5000·t … 5000·t + 4999 of the left operand [100000, 128]
  (window 0, block (t, 0)), the whole weight matrix [128, 128] (window 1, block (0, 0)), and writes back rows
  5000·t … 5000·t + 4999 of the output [100000, 128] (window 2, block (t, 0)). The body's payload is the plain
  product of the two staged blocks (MatmulSpec), so what point t writes back is block t of the plain product of the
  two whole arrays: row p of the left block is row 5000·t + p of the array, and the weights' block is the array.
  Every row r of the output lies in the block of point r / 5000, so the 20 blocks cover the array, and the array
  ends holding the plain product — which is what the host's dot_general of the same two arrays is.
-/
import proofs.«112320_j43233140802156_1_alg».proof.Proof.Gen.KernelIdeal.Frame
import proofs.«112320_j43233140802156_1_alg».proof.Proof.MatmulSpec
import Idealize.ShloMosaic.Lib.Pipeline.Value

noncomputable section

open scoped BigOperators

namespace Cert.KernelIdeal.Matmul

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's load and store rectangles start at the origin. -/
theorem origin2 : (![0, 0] : Fin 2 → Nat) = fun _ => 0 := funext fun a => by fin_cases a <;> rfl

/-- The three windows' block indices at grid point t, decided over the 20 points: the left operand's and the
    output's block is (t, 0), the weights' is (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the left operand's block at point t is entry (5000·t + p, k) of the array. -/
theorem leftBlock2 (c : Dev nD) (t : Fin cfg2.N) (y : S5000x128.Idx) (i : S100000x128.Idx)
    (h0 : (i 0).val = t.val * 5000 + (y 0).val) (h1 : (i 1).val = (y 1).val) :
    iblk2 V c 0 t y = V c main_v78 i := by
  obtain ⟨e0, e1, -, -, -, -⟩ := blockIdx2 t
  show V c main_v78 (((cfg2.win 0).blk t).view.emb y) = V c main_v78 i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The weights' block at every point is the whole weight matrix. -/
theorem weightBlock2 (c : Dev nD) (t : Fin cfg2.N) (y : S128x128.Idx) (i : S128x128.Idx)
    (h0 : (i 0).val = (y 0).val) (h1 : (i 1).val = (y 1).val) :
    iblk2 V c 1 t y = V c main_v79 i := by
  obtain ⟨-, -, e2, e3, -, -⟩ := blockIdx2 t
  show V c main_v79 (((cfg2.win 1).blk t).view.emb y) = V c main_v79 i
  refine congrArg _ (funext fun a => Fin.ext ?_)
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- Entry (p, q) of the output's block at point t sits at entry (5000·t + p, q) of the array. -/
theorem outBlock2 (t : Fin cfg2.N) (j : S5000x128.Idx) :
    ((((cfg2.win 2).blk t).view.emb j) 0).val = t.val * 5000 + (j 0).val
      ∧ ((((cfg2.win 2).blk t).view.emb j) 1).val = (j 1).val := by
  obtain ⟨-, -, -, -, e4, e5⟩ := blockIdx2 t
  constructor
  · show win2_2.index t (0 : Fin 2) * 5000 + 1 * (j 0).val = t.val * 5000 + (j 0).val; omega
  · show win2_2.index t (1 : Fin 2) * 128 + 1 * (j 1).val = (j 1).val; omega

/-- The plain product of a row block of x with w, at an entry, is the plain product of x with w at the entry the
    block's row sits at. -/
theorem plainProd_rowBlock2 (X : S100000x128.Idx → EReal) (W : S128x128.Idx → EReal)
    (x0 : S5000x128.Idx → EReal) (x1 : S128x128.Idx → EReal) (off : Nat)
    (hx0 : ∀ (y : S5000x128.Idx) (i : S100000x128.Idx), (i 0).val = off + (y 0).val → (i 1).val = (y 1).val → x0 y = X i)
    (hx1 : ∀ (y : S128x128.Idx) (i : S128x128.Idx), (i 0).val = (y 0).val → (i 1).val = (y 1).val → x1 y = W i)
    (j : S5000x128.Idx) (i : S100000x128.Idx) (h0 : (i 0).val = off + (j 0).val) (h1 : (i 1).val = (j 1).val) :
    plainProd (N := 5000) (K := 128) (M := 128) x0 x1 j = plainProd (N := 100000) (K := 128) (M := 128) X W i := by
  unfold plainProd
  refine Finset.sum_congr rfl fun k _ => ?_
  refine congrArg₂ (· * ·) (hx0 _ _ h0 rfl) (hx1 _ _ rfl h1)

/-- What grid point t writes back is block t of the plain product of the two arrays the region was entered with. -/
theorem flushed2_eq (c : Dev nD) (t : Fin cfg2.N) :
    (dat2 (F := Ideal) V c).flushed 2 t
      = ((cfg2.win 2).blk t).view.read (Elt Ideal) (plainProd (N := 100000) (K := 128) (M := 128) (V c main_v78) (V c main_v79)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  rw [k2_pay1_eq_plainProd]
  funext j
  obtain ⟨o0, o1⟩ := outBlock2 t j
  exact plainProd_rowBlock2 (V c main_v78) (V c main_v79) _ _ (t.val * 5000)
    (fun y i h0 h1 => leftBlock2 V c t y i h0 h1) (fun y i h0 h1 => weightBlock2 V c t y i h0 h1)
    _ (((cfg2.win 2).blk t).view.emb j) o0 o1

/-- An index of the output array is in point t's block iff each coordinate is in the block's range on its axis. -/
theorem mem_outBlock2 (t : Fin cfg2.N) (i : S100000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole main_v80).slice (win2_2.rect t)).set ↔ _
  rw [View.set_slice_whole, Rect.mem_set_unit]
  exact Iff.rfl

/-- The 20 blocks cover the output array: row r lies in the block of point r / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, by show (i 0).val / 5000 < grid2.N; omega⟩, rfl⟩
  obtain ⟨-, -, -, -, e4, e5⟩ := blockIdx2 t
  refine ⟨t, flush2_2 t, ?_⟩
  rw [mem_outBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region's 20 grid points the output array is the host's dot_general of the two arrays the region was
    entered with. -/
theorem region2_value (V : (c : Dev nD) → (b : Ref sig .tc) → Buf (Elt Ideal) ((c : Thread nD τ).loc b)) (c : Dev nD) :
    (dat2 (F := Ideal) V c).arrAt 2 cfg2.N
      = Host.dotGeneral (F := Ideal) (φ₁ := .bf16) (φ₂ := .bf16) Cert.ReferenceIdeal.dot_S100000x128_S128x128_S100000x128_1_0_0_1_n_n none
          (V c main_v78) (V c main_v79) :=
  ((dat2 (F := Ideal) V c).arrAt_eq_of_cover 2 (plainProd (N := 100000) (K := 128) (M := 128) (V c main_v78) (V c main_v79))
      (fun t _ => flushed2_eq V c t) cover2).trans
    (refDot128_eq_plainProd (V c main_v78) (V c main_v79)).symm

end Cert.KernelIdeal.Matmul

end
-- ==== Proof.RefValue.lean ====
/-
  The second program's result is `Whole.outR` of its eight arguments.

  The program's run ends with its result at the composed term of its 178 whole-array operations. That term is, operation
  for operation, three layers over the edge list extended by the loop edges, a matrix product before each and the
  rectifier after the first two: the function `Whole.outR`, whose definitions spell the same operations.
-/
import proofs.«112320_j43233140802156_1_alg».proof.Proof.RefRun
import proofs.«112320_j43233140802156_1_alg».proof.Proof.Whole

set_option maxRecDepth 16384

noncomputable section

namespace Cert.ReferenceIdeal.RefValue

open Cert.ReferenceIdeal Idealize.ShloMosaic Idealize.ShloMosaic.TcCoe Idealize.SL.Sem

variable {F : FTy → Type} [FloatOps F]

/-- The run's result term is the three-layer function of the arguments. -/
theorem res_eq (m : (ℓ : Loc nD τ sig) → Buf (Elt F) ℓ) (c : Dev nD) :
    Cert.ReferenceIdeal.ValueP.res_main_v134 m c
      = Cert.Whole.outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v134
  rfl

end Cert.ReferenceIdeal.RefValue

end
-- ==== Proof.LayerWords.lean ====
import Idealize.ShloMosaic.Lib.ValueIdx

namespace Cert.Layer

open Idealize.ShloMosaic

/-- A node number with a negative one moved up by the number of nodes (a position counted from the end). -/
def wrapWord (w : BitVec 32) : BitVec 32 :=
  Scalar.select (IntOp.cmpi .slt w 0#32) (IntOp.addi w 100000#32) w

/-- The node a word names: moved up where negative, read as a signed integer, clamped into [0, N - 1]. -/
def node (w : BitVec 32) : Fin 100000 := ⟨min (wrapWord w).toInt.toNat (100000 - 1), by omega⟩

/-- The word of a number below N, read signed, is the number. -/
theorem toInt_ofNat_lt (j : Nat) (hj : j < 100000) : (BitVec.ofNat 32 j).toInt = (j : Int) := by
  rw [BitVec.toInt_eq_toNat_cond, BitVec.toNat_ofNat]
  omega

/-- The word of a number below N is not negative, so it stays where it is. -/
theorem wrapWord_ofNat (j : Nat) (hj : j < 100000) : wrapWord (BitVec.ofNat 32 j) = BitVec.ofNat 32 j := by
  have h : (BitVec.ofNat 32 j).slt 0#32 = false := by
    rw [BitVec.slt, toInt_ofNat_lt j hj]
    simp
  unfold wrapWord IntOp.cmpi
  simp only [h]
  rfl

/-- The word of a node's number names that node. -/
theorem node_ofNat (j : Fin 100000) : node (BitVec.ofNat 32 j.val) = j := by
  apply Fin.ext
  show min (wrapWord (BitVec.ofNat 32 j.val)).toInt.toNat (100000 - 1) = j.val
  rw [wrapWord_ofNat j.val j.isLt, toInt_ofNat_lt j.val j.isLt]
  have := j.isLt
  omega

end Cert.Layer
-- ==== Proof.LayerSum.lean ====
import proofs.«112320_j43233140802156_1_alg».proof.Proof.LayerWords
import Mathlib.Data.EReal.Basic
import Mathlib.Algebra.BigOperators.Fin

open scoped BigOperators

namespace Cert.Layer

/-- Entry e of the E edges, as an entry of the list of E + N. -/
def edgeIx (e : Fin 1600000) : Fin 1700000 := ⟨e.val, by omega⟩

/-- Loop edge j of the N appended ones, as an entry of the list of E + N. -/
def loopIx (j : Fin 100000) : Fin 1700000 := ⟨1600000 + j.val, by omega⟩

/-- A sum over the E + N entries is the sum over the edges plus the sum over the loop edges. -/
theorem sum_edges_loops {M : Type*} [AddCommMonoid M] (f : Fin 1700000 → M) :
    ∑ k : Fin 1700000, f k = ∑ e : Fin 1600000, f (edgeIx e) + ∑ j : Fin 100000, f (loopIx j) :=
  Fin.sum_univ_add (a := 1600000) (b := 100000) f

/-- THE TWO ARRANGEMENTS OF ONE LAYER AT ONE ENTRY.  With one accumulation over the edges followed by the node's own
    term, or one accumulation over the edges and the loop edges together, the value is the same: on an edge the two lists
    hold the same words, a loop edge j holds the word of j at both ends, so it lands at node r only for j = r and there
    contributes the node's own term.  Only associativity of the sum is used. -/
theorem layer_sum (hh dv : Fin 100000 → EReal) (s d : Fin 1600000 → BitVec 32) (sL dL : Fin 1700000 → BitVec 32)
    (hsE : ∀ e, sL (edgeIx e) = s e) (hdE : ∀ e, dL (edgeIx e) = d e)
    (hsL : ∀ j : Fin 100000, sL (loopIx j) = BitVec.ofNat 32 j.val) (hdL : ∀ j : Fin 100000, dL (loopIx j) = BitVec.ofNat 32 j.val)
    (r : Fin 100000) (bq : EReal) :
    ((0 + ∑ e : Fin 1600000, if (d e).toInt = (r.val : ℤ) then hh (node (s e)) * (dv (node (s e)) * dv (node (d e))) else 0)
        + hh r * (dv r * dv r)) + bq
      = (0 + ∑ k : Fin 1700000, if (dL k).toInt = (r.val : ℤ) then hh (node (sL k)) * (dv (node (sL k)) * dv (node (dL k))) else 0)
        + bq := by
  rw [sum_edges_loops]
  have hE : ∀ e : Fin 1600000,
      (if (dL (edgeIx e)).toInt = (r.val : ℤ) then hh (node (sL (edgeIx e))) * (dv (node (sL (edgeIx e))) * dv (node (dL (edgeIx e)))) else 0)
        = if (d e).toInt = (r.val : ℤ) then hh (node (s e)) * (dv (node (s e)) * dv (node (d e))) else 0 := fun e => by
    rw [hsE, hdE]
  have hL : ∀ j : Fin 100000,
      (if (dL (loopIx j)).toInt = (r.val : ℤ) then hh (node (sL (loopIx j))) * (dv (node (sL (loopIx j))) * dv (node (dL (loopIx j)))) else 0)
        = if j = r then hh j * (dv j * dv j) else 0 := fun j => by
    rw [hsL, hdL, node_ofNat, toInt_ofNat_lt j.val j.isLt]
    by_cases hjr : j = r
    · subst hjr; rw [if_pos rfl, if_pos rfl]
    · rw [if_neg hjr, if_neg (fun h => hjr (Fin.ext (by exact_mod_cast h)))]
  simp only [hE, hL]
  rw [Finset.sum_ite_eq' Finset.univ r (fun j => hh j * (dv j * dv j)), if_pos (Finset.mem_univ r), add_assoc 0]

end Cert.Layer
-- ==== Proof.LibRowGatherScatter.lean ====
/-
  Rows picked and rows accumulated by an integer list.

  A two-dimensional array `x : [N, C]` indexed by a list of row numbers `idx : [E, 1]` (what `x[idx]` of a matrix at a
  vector of integers lowers to) gives the array `[E, C]` whose row `e` is row `idx e` of `x`, the row number read as a
  signed integer and clamped into `[0, N - 1]`.

  Dually, accumulating the rows of `upd : [E, C]` into `x : [N, C]` at the row numbers `idx : [E, 1]` (a segment sum) gives,
  over the extended reals, at `(r, q)` the entry `x (r, q)` plus the sum over all `e` whose row number, read as a signed
  integer, IS `r` of `upd (e, q)`; a row number outside `[0, N)` lands nowhere.  The sum is written over ALL `e` with the
  summand `0` where the row number is another, so that two such sums over the same list can be compared term by term.

  Both are generic in the extents `N`, `E`, `C`; the dimension numbers are spelt as literals so that a program's own record
  of them unifies (its side condition `wf` is a parameter).
-/
import Idealize.ShloMosaic.Lib.ValueIdx
import Idealize.ShloMosaic.PureOps.Ideal.Laws

noncomputable section

namespace Cert.RowGatherScatter

open Idealize.ShloMosaic Idealize.ShloMosaic.ValueIdx

/-! ## Picking rows -/

section Gather
variable {α : Type}

/-- The dimension numbers of `x[idx]` for a matrix `x : [N, C]` and row numbers `idx : [E, 1]`: the result's axis 1 is the
    offset axis, the operand's axis 0 is collapsed and is the one the start index names. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of `x` that entry `e` of the list names: its word read signed, clamped into `[0, N - 1]`. -/
def srcRow {N E w : Nat} (hN : 0 < N) (idx : IVec ⟨2, ![E, 1]⟩ w) (e : Fin E) : Fin N :=
  ⟨min (idx (ix2 e 0)).toInt.toNat (N - 1), by omega⟩

/-- THE ROW GATHER READ AT `(e, q)`: entry `q` of the row of `x` that entry `e` of the list names. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (srcRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hst : (rowGatherDims N E C wf).start (ix2 e q) idx 1 = 0 := by
      unfold GatherDims.start
      rw [dif_neg (show ¬ (1 : Fin 2) ∈ (rowGatherDims N E C wf).startIndexMap from
        (show ¬ (1 : Fin 2) ∈ ([0] : List (Fin 2)) from by decide))]
    have hoff : (rowGatherDims N E C wf).offCoord (ix2 e q) 1 = q.val := by
      unfold GatherDims.offCoord
      rw [dif_pos (show (1 : Fin 2) ∈ (rowGatherDims N E C wf).sKept from
        ((rowGatherDims N E C wf).mem_sKept 1).2 ⟨(show ¬ (1 : Fin 2) ∈ ([0] : List (Fin 2)) from by decide), List.not_mem_nil⟩)]
      rfl
    rw [hst, hoff]
    omega

end Gather

/-! ## Accumulating rows -/

section Scatter

/-- The dimension numbers of a row accumulation into `[N, C]` of updates `[E, C]` at row numbers `[E, 1]`: the updates'
    axis 1 is the window axis, the operand's axis 0 is inserted and is the one the scatter index names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis the window starts at the row number, read signed, and has no extent. -/
theorem start_window_row (e : Fin E) (c : Fin C) :
    (rowScatterDims N E C wf).start (ix2 e c) idx 0 + ((rowScatterDims N E C wf).window (ix2 e c) 0 : ℤ)
      = (idx (ix2 e 0)).toInt := by
  have hw : (rowScatterDims N E C wf).window (ix2 e c) 0 = 0 := by
    unfold ScatterDims.window
    rw [dif_neg (show ¬ (0 : Fin 2) ∈ (rowScatterDims N E C wf).sKept from
      (show ¬ (0 : Fin 2) ∈ (List.finRange 2).filter (· ∉ ([0] : List (Fin 2))) from by decide))]
  have hs : (rowScatterDims N E C wf).start (ix2 e c) idx 0 = (idx (ix2 e 0)).toInt := by
    unfold ScatterDims.start
    rw [dif_pos (show (0 : Fin 2) ∈ (rowScatterDims N E C wf).scatterDimsToOperandDims from List.mem_singleton.mpr rfl)]
    have hsi : (rowScatterDims N E C wf).siIdx (ix2 e c) ⟨List.idxOf (0 : Fin 2) (rowScatterDims N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  rw [hw, hs]; simp

/-- On the column axis the window starts at `0` and the update's column is the window coordinate. -/
theorem start_window_col (e : Fin E) (c : Fin C) :
    (rowScatterDims N E C wf).start (ix2 e c) idx 1 + ((rowScatterDims N E C wf).window (ix2 e c) 1 : ℤ) = (c.val : ℤ) := by
  have hw : (rowScatterDims N E C wf).window (ix2 e c) 1 = c.val := by
    unfold ScatterDims.window
    rw [dif_pos (show (1 : Fin 2) ∈ (rowScatterDims N E C wf).sKept from
      (show (1 : Fin 2) ∈ (List.finRange 2).filter (· ∉ ([0] : List (Fin 2))) from by decide))]
    rfl
  have hs : (rowScatterDims N E C wf).start (ix2 e c) idx 1 = 0 := by
    unfold ScatterDims.start
    rw [dif_neg (show ¬ (1 : Fin 2) ∈ (rowScatterDims N E C wf).scatterDimsToOperandDims from
      (show ¬ (1 : Fin 2) ∈ ([0] : List (Fin 2)) from by decide))]
  rw [hw, hs]; simp

/-- WHERE AN UPDATE LANDS: update `(e, c)` lands at `(r, q)` exactly when entry `e` of the list, read signed, is `r` and
    the columns agree. -/
theorem resultIdx?_eq_some_iff (e : Fin E) (c : Fin C) (r : Fin N) (q : Fin C) :
    (rowScatterDims N E C wf).resultIdx? (ix2 e c) idx = some (ix2 r q) ↔ (idx (ix2 e 0)).toInt = (r.val : ℤ) ∧ c = q := by
  have h0 := start_window_row wf idx e c
  have h1 := start_window_col wf idx e c
  unfold ScatterDims.resultIdx?
  split
  · rename_i h
    rw [Option.some.injEq]
    constructor
    · intro hf
      have e0 : ((rowScatterDims N E C wf).start (ix2 e c) idx 0 + ((rowScatterDims N E C wf).window (ix2 e c) 0 : ℤ)).toNat = r.val :=
        congrArg (fun f : (⟨2, ![N, C]⟩ : Shape).Idx => (f 0).val) hf
      have e1 : ((rowScatterDims N E C wf).start (ix2 e c) idx 1 + ((rowScatterDims N E C wf).window (ix2 e c) 1 : ℤ)).toNat = q.val :=
        congrArg (fun f : (⟨2, ![N, C]⟩ : Shape).Idx => (f 1).val) hf
      have b0 := (h 0).1
      rw [h0] at e0 b0
      rw [h1] at e1
      exact ⟨by omega, Fin.ext (by omega)⟩
    · rintro ⟨hr, rfl⟩
      funext a; refine Fin.ext ?_
      match a with
      | ⟨0, _⟩ =>
        show ((rowScatterDims N E C wf).start (ix2 e c) idx 0 + ((rowScatterDims N E C wf).window (ix2 e c) 0 : ℤ)).toNat = r.val
        rw [h0, hr]; simp
      | ⟨1, _⟩ =>
        show ((rowScatterDims N E C wf).start (ix2 e c) idx 1 + ((rowScatterDims N E C wf).window (ix2 e c) 1 : ℤ)).toNat = c.val
        rw [h1]; simp
  · rename_i h
    constructor
    · intro hf; cases hf
    · rintro ⟨hr, rfl⟩
      exfalso; apply h
      intro a
      match a with
      | ⟨0, _⟩ =>
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, hr]; have := r.isLt; omega
      | ⟨1, _⟩ =>
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h1]; have := c.isLt; omega

/-- THE ROW ACCUMULATION READ AT `(r, q)`, over the extended reals: the operand's entry plus the sum over every `e` of
    `upd (e, q)` where entry `e` of the list is `r`, of `0` elsewhere. -/
theorem scatterAdd_rows_apply (x : (⟨2, ![N, C]⟩ : Shape).Idx → EReal) (upd : (⟨2, ![E, C]⟩ : Shape).Idx → EReal)
    (r : Fin N) (q : Fin C) :
    Ideal.hostScatterAdd (rowScatterDims N E C wf) x idx upd (ix2 r q)
      = x (ix2 r q) + ∑ e : Fin E, if (idx (ix2 e 0)).toInt = (r.val : ℤ) then upd (ix2 e q) else 0 := by
  unfold Ideal.hostScatterAdd
  congr 1
  rw [Finset.sum_filter, sum_idx2]
  refine Finset.sum_congr rfl fun e _ => ?_
  simp only [resultIdx?_eq_some_iff wf idx e _ r q]
  by_cases hr : (idx (ix2 e 0)).toInt = (r.val : ℤ)
  · simp only [hr, true_and, if_true]
    rw [Finset.sum_ite_eq' Finset.univ q (fun c => upd (ix2 e c))]
    simp
  · simp only [hr, false_and, if_false]
    exact Finset.sum_const_zero

/-- The same for the host operation as a program prints it, `Host.scatterAdd` read at the extended reals (there it IS the
    exact sum above, whatever order the colliding updates are added in). -/
theorem host_scatterAdd_rows_apply {φ : FTy} (x : FVec Ideal ⟨2, ![N, C]⟩ φ) (upd : FVec Ideal ⟨2, ![E, C]⟩ φ)
    (r : Fin N) (q : Fin C) :
    Host.scatterAdd (F := Ideal) (rowScatterDims N E C wf) x idx upd (ix2 r q)
      = x (ix2 r q) + ∑ e : Fin E, if (idx (ix2 e 0)).toInt = (r.val : ℤ) then upd (ix2 e q) else 0 :=
  scatterAdd_rows_apply wf idx x upd r q

end Scatter

end Cert.RowGatherScatter

end
-- ==== Proof.LibGatherVec.lean ====
/-
  Entries of a vector picked by an integer list.

  A one-dimensional array `x : [N]` indexed by a list of positions `idx : [E, 1]` (what `x[idx]` of a vector at a vector
  of integers lowers to) gives the array `[E]` whose entry `e` is entry `idx e` of `x`, the position read as a signed
  integer and clamped into `[0, N - 1]`.  The position is the same function of the list as the row a row lookup of a
  matrix `[N, C]` by the same list finds, so that a vector and a matrix looked up by one list are read at the same place.

  Generic in the extents `N` and `E`; the dimension numbers are spelt as literals so that a program's own record of
  them unifies (its side condition `wf` is a parameter).
-/
import Idealize.ShloMosaic.Lib.ValueIdx
import proofs.«112320_j43233140802156_1_alg».proof.Proof.LibRowGatherScatter

noncomputable section

namespace Cert.GatherVec

open Idealize.ShloMosaic Idealize.ShloMosaic.ValueIdx

variable {α : Type}

/-- The dimension numbers of `x[idx]` for a vector `x : [N]` and positions `idx : [E, 1]`: the result has no offset axis,
    the operand's only axis is collapsed and is the one the start index names. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the entry of `x` at the position that entry `e` of the list names, read signed and
    clamped into `[0, N - 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (Cert.RowGatherScatter.srcRow hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Cert.GatherVec

end
-- ==== Proof.LayerBcast.lean ====
import Idealize.ShloMosaic.Lib.ValueIdx
import Idealize.ShloMosaic.Lib.Pipeline.Value

namespace Cert.Layer

open Idealize.ShloMosaic Idealize.ShloMosaic.ValueIdx

variable {α : Type}

/-- A list [n] as a column [n, 1], read at (e, 0): entry e of the list. -/
theorem bcast_col_apply {n : Nat} (hn : n ≠ 1)
    (h : (⟨1, ![n]⟩ : Shape).BroadcastsInDim ⟨2, ![n, 1]⟩ (![0] : Fin 1 → Fin 2)) (x : (⟨1, ![n]⟩ : Shape).Idx → α) (e : Fin n) :
    broadcastInDim ⟨2, ![n, 1]⟩ ![0] h x (ix2 e 0) = x (ix1 e) :=
  broadcastInDim_apply _ h x (ix2 e 0) (ix1 e) (fun a => match a with
    | ⟨0, _⟩ => by show e.val = if n = 1 then 0 else e.val; rw [if_neg hn])

/-- A column [n, 1] repeated along c columns, read at (e, q): entry (e, 0) of the column. -/
theorem bcast_wide_apply {n c : Nat} (hn : n ≠ 1)
    (h : (⟨2, ![n, 1]⟩ : Shape).BroadcastsInDim ⟨2, ![n, c]⟩ (![0, 1] : Fin 2 → Fin 2)) (x : (⟨2, ![n, 1]⟩ : Shape).Idx → α)
    (e : Fin n) (q : Fin c) :
    broadcastInDim ⟨2, ![n, c]⟩ ![0, 1] h x (ix2 e q) = x (ix2 e 0) :=
  broadcastInDim_apply _ h x (ix2 e q) (ix2 e 0) (fun a => match a with
    | ⟨0, _⟩ => by show e.val = if n = 1 then 0 else e.val; rw [if_neg hn]
    | ⟨1, _⟩ => by show 0 = if (1 : Nat) = 1 then 0 else q.val; rw [if_pos rfl])

/-- A list [c] as a row [1, c], read at (0, q): entry q of the list. -/
theorem bcast_row_apply {c : Nat} (hc : c ≠ 1)
    (h : (⟨1, ![c]⟩ : Shape).BroadcastsInDim ⟨2, ![1, c]⟩ (![1] : Fin 1 → Fin 2)) (x : (⟨1, ![c]⟩ : Shape).Idx → α) (q : Fin c) :
    broadcastInDim ⟨2, ![1, c]⟩ ![1] h x (ix2 0 q) = x (ix1 q) :=
  broadcastInDim_apply _ h x (ix2 0 q) (ix1 q) (fun a => match a with
    | ⟨0, _⟩ => by show q.val = if c = 1 then 0 else q.val; rw [if_neg hc])

/-- A row [1, c] repeated along n rows, read at (r, q): entry (0, q) of the row. -/
theorem bcast_tall_apply {n c : Nat} (hc : c ≠ 1)
    (h : (⟨2, ![1, c]⟩ : Shape).BroadcastsInDim ⟨2, ![n, c]⟩ (![0, 1] : Fin 2 → Fin 2)) (x : (⟨2, ![1, c]⟩ : Shape).Idx → α)
    (r : Fin n) (q : Fin c) :
    broadcastInDim ⟨2, ![n, c]⟩ ![0, 1] h x (ix2 r q) = x (ix2 0 q) :=
  broadcastInDim_apply _ h x (ix2 r q) (ix2 0 q) (fun a => match a with
    | ⟨0, _⟩ => by show 0 = if (1 : Nat) = 1 then 0 else r.val; rw [if_pos rfl]
    | ⟨1, _⟩ => by show q.val = if c = 1 then 0 else q.val; rw [if_neg hc])

end Cert.Layer
-- ==== Proof.LayerK.lean ====
import proofs.«112320_j43233140802156_1_alg».proof.Proof.Spec
import proofs.«112320_j43233140802156_1_alg».proof.Proof.LibRowGatherScatter
import proofs.«112320_j43233140802156_1_alg».proof.Proof.LibGatherVec
import proofs.«112320_j43233140802156_1_alg».proof.Proof.LayerWords
import proofs.«112320_j43233140802156_1_alg».proof.Proof.LayerBcast
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Layer

open Idealize.ShloMosaic Idealize.ShloMosaic.ValueIdx Idealize.ShloMosaic.TcCoe
open Cert.KernelIdeal Cert.KernelIdeal.Gen Cert.RowGatherScatter Cert.GatherVec

/-- The wrapped list at entry e: the entry's word, moved up by N where negative. -/
theorem wrapK_apply (v : (⟨S1600000, .i32⟩ : BufTy).Contents (Elt Ideal)) (e : Fin 1600000) :
    Cert.KernelIdeal.Spec.wrap (F := Ideal) v (ix1 e) = wrapWord (v (ix1 e)) := rfl

/-- The list as a column at (e, 0): entry e of the list. -/
theorem colK_apply (v : (⟨S1600000, .i32⟩ : BufTy).Contents (Elt Ideal)) (e : Fin 1600000) :
    Cert.KernelIdeal.Spec.col (F := Ideal) v (ix2 e 0) = v (ix1 e) :=
  bcast_col_apply (by decide) _ v e

/-- The row a lookup by the wrapped list finds for entry e: the node the entry's word names. -/
theorem srcRowK (v : (⟨S1600000, .i32⟩ : BufTy).Contents (Elt Ideal)) (e : Fin 1600000) :
    srcRow (N := 100000) (by decide) (Cert.KernelIdeal.Spec.col (F := Ideal) (Cert.KernelIdeal.Spec.wrap (F := Ideal) v)) e
      = node (v (ix1 e)) := by
  apply Fin.ext
  show min ((Cert.KernelIdeal.Spec.col (F := Ideal) (Cert.KernelIdeal.Spec.wrap (F := Ideal) v)) (ix2 e 0)).toInt.toNat (100000 - 1)
    = min (wrapWord (v (ix1 e))).toInt.toNat (100000 - 1)
  rw [colK_apply, wrapK_apply]

/-- The rows of h picked by the wrapped list, at (e, q): h at the node entry e names. -/
theorem gatherRowsK_apply (h : (⟨S100000x128, .f32⟩ : BufTy).Contents (Elt Ideal))
    (v : (⟨S1600000, .i32⟩ : BufTy).Contents (Elt Ideal)) (e : Fin 1600000) (q : Fin 128) :
    Host.gather gather_S100000x128_S1600000x1_S1600000x128_1_0_n_n_0_1_1128 h
        (Cert.KernelIdeal.Spec.col (F := Ideal) (Cert.KernelIdeal.Spec.wrap (F := Ideal) v)) (ix2 e q)
      = h (ix2 (node (v (ix1 e))) q) := by
  refine (gather_rows_apply (N := 100000) (E := 1600000) (C := 128) (by decide)
    gather_S100000x128_S1600000x1_S1600000x128_1_0_n_n_0_1_1128.wf h _ e q).trans ?_
  rw [srcRowK]

/-- The entries of a vector picked by the wrapped list, at e: the vector at the node entry e names. -/
theorem gatherVecK_apply (dv : (⟨S100000, .f32⟩ : BufTy).Contents (Elt Ideal))
    (v : (⟨S1600000, .i32⟩ : BufTy).Contents (Elt Ideal)) (e : Fin 1600000) :
    Host.gather gather_S100000_S1600000x1_S1600000_n_0_n_n_0_1_1 dv
        (Cert.KernelIdeal.Spec.col (F := Ideal) (Cert.KernelIdeal.Spec.wrap (F := Ideal) v)) (ix1 e)
      = dv (ix1 (node (v (ix1 e)))) := by
  refine (gather_vec_apply (N := 100000) (E := 1600000) (by decide)
    gather_S100000_S1600000x1_S1600000_n_0_n_n_0_1_1.wf dv _ e).trans ?_
  rw [srcRowK]

/-- An edge's weight: dinv at the node its source names times dinv at the node its target names. -/
theorem normEdge_apply (x1 : (⟨S2x1600000, .i32⟩ : BufTy).Contents (Elt Ideal)) (e : Fin 1600000) :
    Cert.KernelIdeal.Spec.normEdge (F := Ideal) x1 (ix1 e)
      = Cert.KernelIdeal.Spec.dinv (F := Ideal) x1 (ix1 (node (Cert.KernelIdeal.Spec.src (F := Ideal) x1 (ix1 e))))
        * Cert.KernelIdeal.Spec.dinv (F := Ideal) x1 (ix1 (node (Cert.KernelIdeal.Spec.dst (F := Ideal) x1 (ix1 e)))) := by
  unfold Cert.KernelIdeal.Spec.normEdge
  generalize Cert.KernelIdeal.Spec.dinv (F := Ideal) x1 = dv
  generalize Cert.KernelIdeal.Spec.src (F := Ideal) x1 = s
  generalize Cert.KernelIdeal.Spec.dst (F := Ideal) x1 = d
  rw [mulf_apply, gatherVecK_apply, gatherVecK_apply]

/-- A node's own weight: dinv squared. -/
theorem normSelf_apply (x1 : (⟨S2x1600000, .i32⟩ : BufTy).Contents (Elt Ideal)) (r : Fin 100000) :
    Cert.KernelIdeal.Spec.normSelf (F := Ideal) x1 (ix1 r)
      = Cert.KernelIdeal.Spec.dinv (F := Ideal) x1 (ix1 r) * Cert.KernelIdeal.Spec.dinv (F := Ideal) x1 (ix1 r) := by
  unfold Cert.KernelIdeal.Spec.normSelf
  generalize Cert.KernelIdeal.Spec.dinv (F := Ideal) x1 = dv
  rw [mulf_apply]

/-- ONE LAYER OF THE FIRST PROGRAM AT (r, q), from its carried arrays: zero plus the sum over the edges whose target word
    is r of the source's row of h times the edge's weight, plus the node's own row times its own weight, plus the bias. -/
theorem layerOf_apply (h : (⟨S100000x128, .f32⟩ : BufTy).Contents (Elt Ideal))
    (s d : (⟨S1600000, .i32⟩ : BufTy).Contents (Elt Ideal))
    (ne : (⟨S1600000, .f32⟩ : BufTy).Contents (Elt Ideal)) (ns : (⟨S100000, .f32⟩ : BufTy).Contents (Elt Ideal))
    (b : (⟨S128, .f32⟩ : BufTy).Contents (Elt Ideal)) (r : Fin 100000) (q : Fin 128) :
    Cert.KernelIdeal.Spec.layerOf (F := Ideal) h s d ne ns b (ix2 r q)
      = ((0 + ∑ e : Fin 1600000, if (d (ix1 e)).toInt = (r.val : ℤ) then h (ix2 (node (s (ix1 e))) q) * ne (ix1 e) else 0)
          + h (ix2 r q) * ns (ix1 r)) + b (ix1 q) := by
  unfold Cert.KernelIdeal.Spec.layerOf
  rw [addf_apply, addf_apply, mulf_apply]
  rw [bcast_tall_apply (by decide), bcast_row_apply (by decide), bcast_wide_apply (by decide), bcast_col_apply (by decide)]
  refine congrArg (· + b (ix1 q)) (congrArg (· + h (ix2 r q) * ns (ix1 r)) ?_)
  refine (host_scatterAdd_rows_apply (N := 100000) (E := 1600000) (C := 128)
    scatter_S100000x128_S1600000x1_S1600000x128_1_0_0_1.wf _ _ _ r q).trans ?_
  refine congrArg₂ (· + ·) ?_ ?_
  · show Ideal.ofBits .f32 0x00000000#32 = 0
    exact Ideal.ofBits_zero_f32
  · refine Finset.sum_congr rfl fun e _ => ?_
    rw [colK_apply, mulf_apply, gatherRowsK_apply, bcast_wide_apply (by decide), bcast_col_apply (by decide)]

end Cert.Layer

end
-- ==== Proof.LayerR.lean ====
import proofs.«112320_j43233140802156_1_alg».proof.Proof.Spec
import proofs.«112320_j43233140802156_1_alg».proof.Proof.LibRowGatherScatter
import proofs.«112320_j43233140802156_1_alg».proof.Proof.LibGatherVec
import proofs.«112320_j43233140802156_1_alg».proof.Proof.LayerWords
import proofs.«112320_j43233140802156_1_alg».proof.Proof.LayerSum
import proofs.«112320_j43233140802156_1_alg».proof.Proof.LayerBcast
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Layer

open Idealize.ShloMosaic Idealize.ShloMosaic.ValueIdx Idealize.ShloMosaic.TcCoe
open Cert.ReferenceIdeal Cert.ReferenceIdeal.Gen Cert.RowGatherScatter Cert.GatherVec

/-- The list extended by the loop edges, at an edge: the list's own entry. -/
theorem withLoops_edge (v : (⟨S1600000, .i32⟩ : BufTy).Contents (Elt Ideal)) (e : Fin 1600000) :
    Cert.ReferenceIdeal.Spec.withLoops (F := Ideal) v (ix1 (edgeIx e)) = v (ix1 e) :=
  concatenate_pair_apply_left 0 v (iotaInDim S100000 32 0) concatenates_S1600000_S100000_S1700000_d0 (ix1 (edgeIx e)) rfl (ix1 e)
    (fun b => match b with | ⟨0, _⟩ => rfl)

/-- The list extended by the loop edges, at loop edge j: the word of j. -/
theorem withLoops_loop (v : (⟨S1600000, .i32⟩ : BufTy).Contents (Elt Ideal)) (j : Fin 100000) :
    Cert.ReferenceIdeal.Spec.withLoops (F := Ideal) v (ix1 (loopIx j)) = BitVec.ofNat 32 j.val :=
  (concatenate_pair_apply_right 0 v (iotaInDim S100000 32 0) concatenates_S1600000_S100000_S1700000_d0 (ix1 (loopIx j)) rfl rfl (ix1 j)
    (fun b => match b with | ⟨0, _⟩ => fun hb => absurd rfl hb)
    (by show j.val + 1600000 = 1600000 + j.val; omega)).trans rfl

/-- The wrapped list at entry k: the entry's word, moved up by N where negative. -/
theorem wrapR_apply (v : (⟨S1700000, .i32⟩ : BufTy).Contents (Elt Ideal)) (k : Fin 1700000) :
    Cert.ReferenceIdeal.Spec.wrap (F := Ideal) v (ix1 k) = wrapWord (v (ix1 k)) := rfl

/-- The list as a column at (k, 0): entry k of the list. -/
theorem colR_apply (v : (⟨S1700000, .i32⟩ : BufTy).Contents (Elt Ideal)) (k : Fin 1700000) :
    Cert.ReferenceIdeal.Spec.col (F := Ideal) v (ix2 k 0) = v (ix1 k) :=
  bcast_col_apply (by decide) _ v k

/-- The row a lookup by the wrapped list finds for entry k: the node the entry's word names. -/
theorem srcRowR (v : (⟨S1700000, .i32⟩ : BufTy).Contents (Elt Ideal)) (k : Fin 1700000) :
    srcRow (N := 100000) (by decide) (Cert.ReferenceIdeal.Spec.col (F := Ideal) (Cert.ReferenceIdeal.Spec.wrap (F := Ideal) v)) k
      = node (v (ix1 k)) := by
  apply Fin.ext
  show min ((Cert.ReferenceIdeal.Spec.col (F := Ideal) (Cert.ReferenceIdeal.Spec.wrap (F := Ideal) v)) (ix2 k 0)).toInt.toNat (100000 - 1)
    = min (wrapWord (v (ix1 k))).toInt.toNat (100000 - 1)
  rw [colR_apply, wrapR_apply]

/-- The rows of h picked by the wrapped list, at (k, q): h at the node entry k names. -/
theorem gatherRowsR_apply (h : (⟨S100000x128, .f32⟩ : BufTy).Contents (Elt Ideal))
    (v : (⟨S1700000, .i32⟩ : BufTy).Contents (Elt Ideal)) (k : Fin 1700000) (q : Fin 128) :
    Host.gather gather_S100000x128_S1700000x1_S1700000x128_1_0_n_n_0_1_1128 h
        (Cert.ReferenceIdeal.Spec.col (F := Ideal) (Cert.ReferenceIdeal.Spec.wrap (F := Ideal) v)) (ix2 k q)
      = h (ix2 (node (v (ix1 k))) q) := by
  refine (gather_rows_apply (N := 100000) (E := 1700000) (C := 128) (by decide)
    gather_S100000x128_S1700000x1_S1700000x128_1_0_n_n_0_1_1128.wf h _ k q).trans ?_
  rw [srcRowR]

/-- The entries of a vector picked by the wrapped list, at k: the vector at the node entry k names. -/
theorem gatherVecR_apply (dv : (⟨S100000, .f32⟩ : BufTy).Contents (Elt Ideal))
    (v : (⟨S1700000, .i32⟩ : BufTy).Contents (Elt Ideal)) (k : Fin 1700000) :
    Host.gather gather_S100000_S1700000x1_S1700000_n_0_n_n_0_1_1 dv
        (Cert.ReferenceIdeal.Spec.col (F := Ideal) (Cert.ReferenceIdeal.Spec.wrap (F := Ideal) v)) (ix1 k)
      = dv (ix1 (node (v (ix1 k)))) := by
  refine (gather_vec_apply (N := 100000) (E := 1700000) (by decide)
    gather_S100000_S1700000x1_S1700000_n_0_n_n_0_1_1.wf dv _ k).trans ?_
  rw [srcRowR]

/-- An entry's weight: dinv at the node its source names times dinv at the node its target names. -/
theorem norm_apply (x1 : (⟨S2x1600000, .i32⟩ : BufTy).Contents (Elt Ideal)) (k : Fin 1700000) :
    Cert.ReferenceIdeal.Spec.norm (F := Ideal) x1 (ix1 k)
      = Cert.KernelIdeal.Spec.dinv (F := Ideal) x1
          (ix1 (node (Cert.ReferenceIdeal.Spec.withLoops (F := Ideal) (Cert.KernelIdeal.Spec.src (F := Ideal) x1) (ix1 k))))
        * Cert.KernelIdeal.Spec.dinv (F := Ideal) x1
          (ix1 (node (Cert.ReferenceIdeal.Spec.withLoops (F := Ideal) (Cert.KernelIdeal.Spec.dst (F := Ideal) x1) (ix1 k)))) := by
  unfold Cert.ReferenceIdeal.Spec.norm
  generalize Cert.KernelIdeal.Spec.dinv (F := Ideal) x1 = dv
  generalize Cert.ReferenceIdeal.Spec.withLoops (F := Ideal) (Cert.KernelIdeal.Spec.src (F := Ideal) x1) = s
  generalize Cert.ReferenceIdeal.Spec.withLoops (F := Ideal) (Cert.KernelIdeal.Spec.dst (F := Ideal) x1) = d
  rw [mulf_apply, gatherVecR_apply, gatherVecR_apply]

/-- ONE LAYER OF THE SECOND PROGRAM AT (r, q): zero plus the sum over the entries of the extended list whose target word
    is r of the source's row of h times the entry's weight, plus the bias. -/
theorem layerR_apply (h : (⟨S100000x128, .f32⟩ : BufTy).Contents (Elt Ideal))
    (x1 : (⟨S2x1600000, .i32⟩ : BufTy).Contents (Elt Ideal))
    (b : (⟨S128, .f32⟩ : BufTy).Contents (Elt Ideal)) (r : Fin 100000) (q : Fin 128) :
    Cert.ReferenceIdeal.Spec.layerR (F := Ideal) h x1 b (ix2 r q)
      = (0 + ∑ k : Fin 1700000,
            if (Cert.ReferenceIdeal.Spec.withLoops (F := Ideal) (Cert.KernelIdeal.Spec.dst (F := Ideal) x1) (ix1 k)).toInt = (r.val : ℤ)
            then h (ix2 (node (Cert.ReferenceIdeal.Spec.withLoops (F := Ideal) (Cert.KernelIdeal.Spec.src (F := Ideal) x1) (ix1 k))) q)
              * Cert.ReferenceIdeal.Spec.norm (F := Ideal) x1 (ix1 k)
            else 0)
        + b (ix1 q) := by
  unfold Cert.ReferenceIdeal.Spec.layerR
  generalize Cert.ReferenceIdeal.Spec.norm (F := Ideal) x1 = nrm
  generalize Cert.ReferenceIdeal.Spec.withLoops (F := Ideal) (Cert.KernelIdeal.Spec.src (F := Ideal) x1) = s
  generalize Cert.ReferenceIdeal.Spec.withLoops (F := Ideal) (Cert.KernelIdeal.Spec.dst (F := Ideal) x1) = d
  rw [addf_apply]
  rw [bcast_tall_apply (by decide), bcast_row_apply (by decide)]
  refine congrArg (· + b (ix1 q)) ?_
  refine (host_scatterAdd_rows_apply (N := 100000) (E := 1700000) (C := 128)
    scatter_S100000x128_S1700000x1_S1700000x128_1_0_0_1.wf _ _ _ r q).trans ?_
  refine congrArg₂ (· + ·) ?_ ?_
  · show Ideal.ofBits .f32 0x00000000#32 = 0
    exact Ideal.ofBits_zero_f32
  · refine Finset.sum_congr rfl fun k _ => ?_
    rw [colR_apply, mulf_apply, gatherRowsR_apply, bcast_wide_apply (by decide), bcast_col_apply (by decide)]

end Cert.Layer

end
-- ==== Proof.Layer.lean ====
import proofs.«112320_j43233140802156_1_alg».proof.Proof.Spec
import proofs.«112320_j43233140802156_1_alg».proof.Proof.LayerSum
import proofs.«112320_j43233140802156_1_alg».proof.Proof.LayerK
import proofs.«112320_j43233140802156_1_alg».proof.Proof.LayerR
import Idealize.ShloMosaic.PureOps.Ideal
import Idealize.ShloMosaic.PureOps.Ideal.Laws
import Idealize.ShloMosaic.Lib.ValueIdx
import Idealize.ShloMosaic.Lib.Pipeline.Value

noncomputable section

namespace Cert.Layer

open Idealize.ShloMosaic Idealize.ShloMosaic.ValueIdx Idealize.ShloMosaic.TcCoe

/-- One layer of the two programs is one function: for every feature array, edge list and bias.  Entry by entry, the
    first program's value is the accumulation over the edges plus the node's own term plus the bias, the second's the
    accumulation over the edges and the loop edges plus the bias; a loop edge v -> v lands at v alone and contributes
    exactly the node's own term, so the two differ by the association of one sum. -/
theorem layer_eq (h : (⟨Cert.KernelIdeal.S100000x128, .f32⟩ : BufTy).Contents (Elt Ideal))
    (x1 : (⟨Cert.KernelIdeal.S2x1600000, .i32⟩ : BufTy).Contents (Elt Ideal))
    (b : (⟨Cert.KernelIdeal.S128, .f32⟩ : BufTy).Contents (Elt Ideal)) :
    Cert.KernelIdeal.Spec.layerK (F := Ideal) h x1 b = Cert.ReferenceIdeal.Spec.layerR (F := Ideal) h x1 b := by
  funext i
  obtain ⟨r, q, rfl⟩ : ∃ (r : Fin 100000) (q : Fin 128), i = ix2 r q := ⟨i 0, i 1, eq_ix2 i⟩
  unfold Cert.KernelIdeal.Spec.layerK
  rw [layerOf_apply, layerR_apply]
  simp only [normEdge_apply, normSelf_apply, norm_apply]
  generalize Cert.KernelIdeal.Spec.dinv (F := Ideal) x1 = dv
  generalize Cert.KernelIdeal.Spec.src (F := Ideal) x1 = s
  generalize Cert.KernelIdeal.Spec.dst (F := Ideal) x1 = d
  exact layer_sum (fun n => h (ix2 n q)) (fun n => dv (ix1 n)) (fun e => s (ix1 e)) (fun e => d (ix1 e))
    (fun k => Cert.ReferenceIdeal.Spec.withLoops (F := Ideal) s (ix1 k))
    (fun k => Cert.ReferenceIdeal.Spec.withLoops (F := Ideal) d (ix1 k))
    (fun e => withLoops_edge s e) (fun e => withLoops_edge d e) (fun j => withLoops_loop s j) (fun j => withLoops_loop d j)
    r (b (ix1 q))

end Cert.Layer

end
-- ==== Proof.Bridge.lean ====
/-
  If one layer of the two programs is one function, so are the programs.

  Over the extended reals rounding the operands of a matrix product to a narrower format first does not change the
  product: entry by entry both products are the sum over the contracted index of the operands' products, and rounding is
  the identity there. So the first program's result (`Whole.outK`) is the second's (`Whole.outR`) with each layer
  replaced, and the layers' agreement rewrites one into the other.
-/
import proofs.«112320_j43233140802156_1_alg».proof.Proof.Whole
import Idealize.ShloMosaic.PureOps.Ideal
import Idealize.ShloMosaic.PureOps.Ideal.Laws

noncomputable section

namespace Cert.Bridge

open Idealize.ShloMosaic Idealize.ShloMosaic.TcCoe
open Cert.KernelIdeal (S100000x256 S2x1600000 S256x128 S128 S128x128 S100000x128)

/-- Over the extended reals rounding the operands first does not change the product [N, 256] x [256, 128]: entry by
    entry both are the sum over the contracted index of the operands' products, and rounding is the identity. -/
theorem dotA_narrow (l : (⟨S100000x256, .f32⟩ : BufTy).Contents (Elt Ideal)) (r : (⟨S256x128, .f32⟩ : BufTy).Contents (Elt Ideal)) :
    Cert.Whole.dotA (F := Ideal) (Cert.Whole.narrow l) (Cert.Whole.narrow r) = Cert.Whole.dotA (F := Ideal) (φ₁ := .f32) (φ₂ := .f32) l r := by
  funext i
  simp only [Cert.Whole.dotA, Host.dotGeneral]
  rw [Ideal.dotGeneral_apply, Ideal.dotGeneral_apply]
  exact Finset.sum_congr rfl fun k _ => rfl

/-- The same for the product [N, 128] x [128, 128]. -/
theorem dotB_narrow (l : (⟨S100000x128, .f32⟩ : BufTy).Contents (Elt Ideal)) (r : (⟨S128x128, .f32⟩ : BufTy).Contents (Elt Ideal)) :
    Cert.Whole.dotB (F := Ideal) (Cert.Whole.narrow l) (Cert.Whole.narrow r) = Cert.Whole.dotB (F := Ideal) (φ₁ := .f32) (φ₂ := .f32) l r := by
  funext i
  simp only [Cert.Whole.dotB, Host.dotGeneral]
  rw [Ideal.dotGeneral_apply, Ideal.dotGeneral_apply]
  exact Finset.sum_congr rfl fun k _ => rfl

/-- THE TWO PROGRAMS' RESULTS ARE ONE FUNCTION of the eight arguments, given that their layers are. -/
theorem out_eq
    (layer_eq : ∀ (h : (⟨S100000x128, .f32⟩ : BufTy).Contents (Elt Ideal)) (x1 : (⟨S2x1600000, .i32⟩ : BufTy).Contents (Elt Ideal))
      (b : (⟨S128, .f32⟩ : BufTy).Contents (Elt Ideal)),
      Cert.KernelIdeal.Spec.layerK (F := Ideal) h x1 b = Cert.ReferenceIdeal.Spec.layerR (F := Ideal) h x1 b)
    (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    Cert.Whole.outK (F := Ideal) x0 x1 x2 x3 x4 x5 x6 x7 = Cert.Whole.outR (F := Ideal) x0 x1 x2 x3 x4 x5 x6 x7 := by
  unfold Cert.Whole.outK Cert.Whole.outR
  simp only [layer_eq, dotA_narrow, dotB_narrow]

end Cert.Bridge

end
-- ==== Proof.lean ====
/-
  A three-layer graph convolution on N = 100000 nodes and E = 1600000 edges: the tiled program against the plain one,
  over the extended reals.

  Each layer multiplies the node features by a weight matrix, then replaces every node's row by the weighted sum of its
  neighbours' rows and its own, plus a bias; the weight of an edge u -> v is dinv u * dinv v with dinv = degree ^ (-1/2)
  (0 at degree 0), the degree counting the node itself. The tiled program does the three matrix products in blocks of
  5000 rows with the operands rounded to a narrower format, sums over the E edges and adds the node's own term
  afterwards; the plain program multiplies the operands as they are, appends one loop edge per node to the edge list and
  sums over all E + N entries at once.

  The proof, module by module:
  * Spec, Whole: one layer of each program, and each program's result as a function of its eight arguments, spelt with
    the operations the programs print.
  * KernelRun: the tiled program terminates, its result buffer at the contents of the last boundary of its run.
    KernelStages, KernelValue: those contents, followed from the launch through the four stretches of whole-array
    operations and the three products, are `Whole.outK` of the arguments.
  * MatmulSpec, MatmulRegion0/1/2: each tiled product leaves the plain product of its two arrays: what a grid point
    writes back is a block of it, and the twenty blocks cover the array.
  * RefRun, RefValue: the plain program terminates with its result at `Whole.outR` of the arguments.
  * Layer: one layer of the two programs is one function: the sum over E + N entries splits into the E edges and the
    N loop edges, of which exactly one lands at each node; only associativity of the sum is used, so no finiteness.
  * Bridge: rounding before a product is the identity over the extended reals, so the programs' results are one function.
  The idealization rewrote nothing, so its conjunct is trivial; the three frames are the programs' runs with the result
  dropped.
-/
import proofs.«112320_j43233140802156_1_alg».proof.Defs
import proofs.«112320_j43233140802156_1_alg».proof.Proof.Gen.Kernel
import proofs.«112320_j43233140802156_1_alg».proof.Proof.Gen.Kernel.Skeleton
import proofs.«112320_j43233140802156_1_alg».proof.Proof.Gen.Kernel.Launch
import proofs.«112320_j43233140802156_1_alg».proof.Proof.Gen.Kernel.Points
import proofs.«112320_j43233140802156_1_alg».proof.Proof.Gen.Kernel.Frame
import proofs.«112320_j43233140802156_1_alg».proof.Proof.Gen.KernelIdeal
import proofs.«112320_j43233140802156_1_alg».proof.Proof.Gen.KernelIdeal.Skeleton
import proofs.«112320_j43233140802156_1_alg».proof.Proof.Gen.KernelIdeal.Launch
import proofs.«112320_j43233140802156_1_alg».proof.Proof.Gen.KernelIdeal.Points
import proofs.«112320_j43233140802156_1_alg».proof.Proof.Gen.KernelIdeal.Frame
import proofs.«112320_j43233140802156_1_alg».proof.Proof.Gen.ReferenceIdeal
import proofs.«112320_j43233140802156_1_alg».proof.Proof.Gen.Pre_finite_inputs
import proofs.«112320_j43233140802156_1_alg».proof.Proof.KernelRun
import proofs.«112320_j43233140802156_1_alg».proof.Proof.KernelValue
import proofs.«112320_j43233140802156_1_alg».proof.Proof.MatmulRegion0
import proofs.«112320_j43233140802156_1_alg».proof.Proof.MatmulRegion1
import proofs.«112320_j43233140802156_1_alg».proof.Proof.MatmulRegion2
import proofs.«112320_j43233140802156_1_alg».proof.Proof.RefRun
import proofs.«112320_j43233140802156_1_alg».proof.Proof.RefValue
import proofs.«112320_j43233140802156_1_alg».proof.Proof.Layer
import proofs.«112320_j43233140802156_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The tiled program as printed runs and leaves its arguments. -/
theorem frame_kernel : Cert.frame_Kernel := fun m ρ _ => Cert.Kernel.Gen.frame m ρ

/-- The tiled program over the extended reals runs and leaves its arguments. -/
theorem frame_kernelIdeal : Cert.frame_KernelIdeal := fun m ρ _ => Cert.KernelIdeal.Gen.frame m ρ

/-- The plain program runs and leaves its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the three-layer function of the arguments: the tiled
    one at `Whole.outK` (its run, and the contents at its last boundary), the plain one at `Whole.outR` (its run's result
    term), and the two are one function. -/
theorem algebraic : Cert.algebraic_KernelIdeal_ReferenceIdeal := by
  intro m ρ m' ρ' _ hagree
  refine ⟨fun c => Cert.Whole.outK (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.value m ρ Cert.KernelIdeal.Matmul.region0_value
        Cert.KernelIdeal.Matmul.region1_value Cert.KernelIdeal.Matmul.region2_value c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.RefValue.res_eq, e0, e1, e2, e3, e4, e5, e6, e7]
    exact (Cert.Bridge.out_eq Cert.Layer.layer_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
